-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x1024 : Shape := ⟨2, ![512, 1024]⟩
abbrev S1024 : Shape := ⟨1, ![1024]⟩
abbrev S1024x1024 : Shape := ⟨2, ![1024, 1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x512 .f32) (main_arg2 : FVec F S512x1024 .f32) (main_arg3 : FVec F S1024 .f32) (main_arg4 : FVec F S512x1024 .f32) (main_arg5 : FVec F S1024 .f32) (main_arg6 : FVec F S1024x1024 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x512 : Shape := ⟨3, ![4, 64, 512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S256x512 : Shape := ⟨2, ![256, 512]⟩
abbrev S256x1024 : Shape := ⟨2, ![256, 1024]⟩
abbrev S1x1024 : Shape := ⟨2, ![1, 1024]⟩
abbrev S4x256x1024 : Shape := ⟨3, ![4, 256, 1024]⟩
abbrev S4x64x1024 : Shape := ⟨3, ![4, 64, 1024]⟩
abbrev S4x256x64x1024 : Shape := ⟨4, ![4, 256, 64, 1024]⟩
abbrev S1x32x1024 : Shape := ⟨3, ![1, 32, 1024]⟩
abbrev S1x64x1024 : Shape := ⟨3, ![1, 64, 1024]⟩
abbrev S1x32x64x1024 : Shape := ⟨4, ![1, 32, 64, 1024]⟩
abbrev S32x1024 : Shape := ⟨2, ![32, 1024]⟩
abbrev S64x1024 : Shape := ⟨2, ![64, 1024]⟩
abbrev S32x1x1024 : Shape := ⟨3, ![32, 1, 1024]⟩
abbrev S32x64x1024 : Shape := ⟨3, ![32, 64, 1024]⟩
abbrev S2048x1024 : Shape := ⟨2, ![2048, 1024]⟩

abbrev nBuf : Space → Nat
  | .hbm => 16
  | .vmem => 18
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S1024, .f32⟩
  | .hbm, ⟨4, _⟩ => ⟨S512x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S256x512, .f32⟩
  | .hbm, ⟨10, _⟩ => ⟨S1024x1024, .f32⟩
  | .hbm, ⟨11, _⟩ => ⟨S256x1024, .f32⟩
  | .hbm, ⟨12, _⟩ => ⟨S4x256x1024, .f32⟩
  | .hbm, ⟨13, _⟩ => ⟨S4x64x1024, .f32⟩
  | .hbm, ⟨14, _⟩ => ⟨S1024x1024, .bf16⟩
  | .hbm, ⟨15, _⟩ => ⟨S4x256x64x1024, .f32⟩
  | .local _ .vmem, ⟨0, _⟩ => ⟨S256x512, .f32⟩
  | .local _ .vmem, ⟨1, _⟩ => ⟨S256x512, .f32⟩
  | .local _ .vmem, ⟨2, _⟩ => ⟨S512x1024, .f32⟩
  | .local _ .vmem, ⟨3, _⟩ => ⟨S1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S512x1024, .f32⟩
  | .local _ .vmem, ⟨8, _⟩ => ⟨S1024, .f32⟩
  | .local _ .vmem, ⟨9, _⟩ => ⟨S256x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x64x1024, .f32⟩
  | .local _ .vmem, ⟨13, _⟩ => ⟨S1x64x1024, .f32⟩
  | .local _ .vmem, ⟨14, _⟩ => ⟨S1024x1024, .bf16⟩
  | .local _ .vmem, ⟨15, _⟩ => ⟨S1024, .f32⟩
  | .local _ .vmem, ⟨16, _⟩ => ⟨S1x32x64x1024, .f32⟩
  | .local _ .vmem, ⟨17, _⟩ => ⟨S1x32x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S512x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x32x64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S4x256x512_S1024x512 : S4x256x512.ShapeCasts S1024x512
  shapeCasts_S4x64x512_S256x512 : S4x64x512.ShapeCasts S256x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S1024x1024_S4x256x1024 : S1024x1024.ShapeCasts S4x256x1024
  shapeCasts_S256x1024_S4x64x1024 : S256x1024.ShapeCasts S4x64x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  shapeCasts_S32x64x1024_S2048x1024 : S32x64x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S2048x1024 : S1x1024.Broadcasts S2048x1024
  shapeCasts_S2048x1024_S32x64x1024 : S2048x1024.ShapeCasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S256x512_S512x1024_S256x1024_1_0_0_1_n_n_wf : DotDims.WF S256x512 S512x1024 S256x1024 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .f32 = 32 ∨ (Rect.block (s := S1024x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .f32 = 32 ∨ (Rect.block (s := S512x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .f32 = 32 ∨ (Rect.block (s := S256x1024) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S4x256x1024.size a
  hwx2_0 : ∀ i : grid2.Coords, EltTy.bits .f32 = 32 ∨ (Rect.block (s := S4x256x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S4x64x1024.size a
  hwx2_1 : ∀ i : grid2.Coords, EltTy.bits .f32 = 32 ∨ (Rect.block (s := S4x64x1024) S1x64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x32x64x1024.size a ≤ S4x256x64x1024.size a
  hwx2_4 : ∀ i : grid2.Coords, EltTy.bits .f32 = 32 ∨ (Rect.block (s := S4x256x64x1024) S1x32x64x1024.size (cc2_transform_4 i) (hinb2_4 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x512.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x1024.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x32x64x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x1024 : Shape := ⟨2, ![512, 1024]⟩
abbrev S1024 : Shape := ⟨1, ![1024]⟩
abbrev S1024x1024 : Shape := ⟨2, ![1024, 1024]⟩
abbrev S4x256x1024 : Shape := ⟨3, ![4, 256, 1024]⟩
abbrev S1x1x1024 : Shape := ⟨3, ![1, 1, 1024]⟩
abbrev S4x64x1024 : Shape := ⟨3, ![4, 64, 1024]⟩
abbrev S4x256x1x1024 : Shape := ⟨4, ![4, 256, 1, 1024]⟩
abbrev S4x1x64x1024 : Shape := ⟨4, ![4, 1, 64, 1024]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S1024, .f32⟩
  | .hbm, ⟨4, _⟩ => ⟨S512x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4x256x1024, .f32⟩
  | .hbm, ⟨9, _⟩ => ⟨S1x1x1024, .f32⟩
  | .hbm, ⟨10, _⟩ => ⟨S4x256x1024, .f32⟩
  | .hbm, ⟨11, _⟩ => ⟨S4x256x1024, .f32⟩
  | .hbm, ⟨12, _⟩ => ⟨S4x64x1024, .f32⟩
  | .hbm, ⟨13, _⟩ => ⟨S1x1x1024, .f32⟩
  | .hbm, ⟨14, _⟩ => ⟨S4x64x1024, .f32⟩
  | .hbm, ⟨15, _⟩ => ⟨S4x64x1024, .f32⟩
  | .hbm, ⟨16, _⟩ => ⟨S4x256x1x1024, .f32⟩
  | .hbm, ⟨17, _⟩ => ⟨S4x1x64x1024, .f32⟩
  | .hbm, ⟨18, _⟩ => ⟨S4x256x64x1024, .f32⟩
  | .hbm, ⟨19, _⟩ => ⟨S4x256x64x1024, .f32⟩
  | .hbm, ⟨20, _⟩ => ⟨S4x256x64x1024, .f32⟩
  | .hbm, ⟨21, _⟩ => ⟨S4x256x64x1024, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x256x1024_0_1_2 : S1x1x1024.BroadcastsInDim S4x256x1024 (![0, 1, 2] : Fin 3 → Fin S4x256x1024.rank)
  bcast_S1x1x1024_S4x64x1024_0_1_2 : S1x1x1024.BroadcastsInDim S4x64x1024 (![0, 1, 2] : Fin 3 → Fin S4x64x1024.rank)
  bcast_S4x256x1024_S4x256x1x1024_0_1_3 : S4x256x1024.BroadcastsInDim S4x256x1x1024 (![0, 1, 3] : Fin 3 → Fin S4x256x1x1024.rank)
  bcast_S4x64x1024_S4x1x64x1024_0_2_3 : S4x64x1024.BroadcastsInDim S4x1x64x1024 (![0, 2, 3] : Fin 3 → Fin S4x1x64x1024.rank)
  bcast_S4x256x1x1024_S4x256x64x1024_0_1_2_3 : S4x256x1x1024.BroadcastsInDim S4x256x64x1024 (![0, 1, 2, 3] : Fin 4 → Fin S4x256x64x1024.rank)
  bcast_S4x1x64x1024_S4x256x64x1024_0_1_2_3 : S4x1x64x1024.BroadcastsInDim S4x256x64x1024 (![0, 1, 2, 3] : Fin 4 → Fin S4x256x64x1024.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x512_S512x1024_S4x256x1024_2_0_01_1_n_n_wf : DotDims.WF S4x256x512 S512x1024 S4x256x1024 [2] [0] [0, 1] [1] [] []
  dot_S4x64x512_S512x1024_S4x64x1024_2_0_01_1_n_n_wf : DotDims.WF S4x64x512 S512x1024 S4x64x1024 [2] [0] [0, 1] [1] [] []
  dot_S4x256x64x1024_S1024x1024_S4x256x64x1024_3_0_012_1_n_n_wf : DotDims.WF S4x256x64x1024 S1024x1024 S4x256x64x1024 [3] [0] [0, 1, 2] [1] [] []

variable [Facts₀]

def dot_S4x256x512_S512x1024_S4x256x1024_2_0_01_1_n_n : DotDims S4x256x512 S512x1024 S4x256x1024 where
  lhsContracting := [2]
  rhsContracting := [0]
  lhsNonContracting := [0, 1]
  rhsNonContracting := [1]
  lhsBatch := []
  rhsBatch := []
  wf := dot_S4x256x512_S512x1024_S4x256x1024_2_0_01_1_n_n_wf
def dot_S4x64x512_S512x1024_S4x64x1024_2_0_01_1_n_n : DotDims S4x64x512 S512x1024 S4x64x1024 where
  lhsContracting := [2]
  rhsContracting := [0]
  lhsNonContracting := [0, 1]
  rhsNonContracting := [1]
  lhsBatch := []
  rhsBatch := []
  wf := dot_S4x64x512_S512x1024_S4x64x1024_2_0_01_1_n_n_wf
def dot_S4x256x64x1024_S1024x1024_S4x256x64x1024_3_0_012_1_n_n : DotDims S4x256x64x1024 S1024x1024 S4x256x64x1024 where
  lhsContracting := [3]
  rhsContracting := [0]
  lhsNonContracting := [0, 1, 2]
  rhsNonContracting := [1]
  lhsBatch := []
  rhsBatch := []
  wf := dot_S4x256x64x1024_S1024x1024_S4x256x64x1024_3_0_012_1_n_n_wf

class Facts : Prop extends Facts₀ where

variable [Facts]
-- ==== Proof.KernelRun.lean ====
/-
  The idealized kernel's run with its result named.

  @main is five segments: two host reshapes, the two projection kernels, two host reshapes and a change of float format,
  and the joint kernel. The generated frame proof folds the buffers' contents through these segments (`Gen.W0` … `Gen.W5`:
  a host stretch applies its operations, a region replaces its arrays by what its write-backs leave) and concludes, from
  the launch over the segments, that every unscoped buffer ends at the last boundary's contents `Gen.W5`; it then reads
  only the argument buffers. Here the same launch is read at the result buffer as well: every weakly fair execution
  terminates, nothing faults, the result `main_v7` ends at `Gen.W5 … main_v7` and the arguments end as launched. What
  `Gen.W5 … main_v7` IS, as a function of the arguments, is the fold's business (`KernelValue`), not this module's.
-/
import proofs.«129957_j33552284516605_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates without a fault; the result buffer ends at the contents the fold
    through the segments gives it, and every argument buffer ends as launched. -/
theorem run_result : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.ValueRun

end
-- ==== Proof.Spec.lean ====
/-
  The transducer joint network as ONE function of its eight argument arrays, on the extended reals.

  For a batch entry `b`, an encoder frame `t`, a predictor step `u` and a vocabulary entry `v`,

      logit b t u v = (Σ_j tanh (encProj b t j + predProj b u j) · W_out[j, v]) + b_out[v]

  where the two projections into the joint dimension are dense layers with a bias,

      encProj b t j  = (Σ_d enc[b, t, d]  · W_enc[d, j])  + b_enc[j]
      predProj b u j = (Σ_d pred[b, u, d] · W_pred[d, j]) + b_pred[j].

  Every sum is a finite sum of extended reals in the index's natural order and every operation is the exact one, so the
  same text reads both programs: the kernel computes the projections on the row-flattened arrays (row `256·b + t` of a
  [1024, 512] array, row `64·b + u` of a [256, 512] one) and the logits tile by tile; the reference computes them with
  three `dot_general`s and broadcasts. No law beyond `0 + s = s` (a matrix product into a zero accumulator) joins the
  two sides, so no finiteness of the inputs is needed.
-/
import Idealize.ShloMosaic.PureOps.Ideal
import Idealize.ShloMosaic.Lib.ValueIdx

noncomputable section

namespace Cert.JointSpec

open Idealize.ShloMosaic Idealize.ShloMosaic.ValueIdx

/-- A dense layer with bias read at one output entry: row `x` (512 entries) against column `w`, plus `β`. -/
def dense (x w : Fin 512 → EReal) (β : EReal) : EReal := (∑ d : Fin 512, x d * w d) + β

/-- The dense layer on a row-flattened array: entry (r, j) of `x · w + bias`, for `x` of `R` rows. -/
def denseRows {R : Nat} (x : (⟨2, ![R, 512]⟩ : Shape).Idx → EReal) (w : (⟨2, ![512, 1024]⟩ : Shape).Idx → EReal)
    (bias : (⟨1, ![1024]⟩ : Shape).Idx → EReal) (r : Fin R) (j : Fin 1024) : EReal :=
  dense (fun d => x (ix2 r d)) (fun d => w (ix2 d j)) (bias (ix1 j))

/-- The encoder's projection into the joint dimension at (b, t, j). -/
def encProj (enc : (⟨3, ![4, 256, 512]⟩ : Shape).Idx → EReal) (wEnc : (⟨2, ![512, 1024]⟩ : Shape).Idx → EReal)
    (bEnc : (⟨1, ![1024]⟩ : Shape).Idx → EReal) (b : Fin 4) (t : Fin 256) (j : Fin 1024) : EReal :=
  dense (fun d => enc (ix3 b t d)) (fun d => wEnc (ix2 d j)) (bEnc (ix1 j))

/-- The predictor's projection into the joint dimension at (b, u, j). -/
def predProj (pred : (⟨3, ![4, 64, 512]⟩ : Shape).Idx → EReal) (wPred : (⟨2, ![512, 1024]⟩ : Shape).Idx → EReal)
    (bPred : (⟨1, ![1024]⟩ : Shape).Idx → EReal) (b : Fin 4) (u : Fin 64) (j : Fin 1024) : EReal :=
  dense (fun d => pred (ix3 b u d)) (fun d => wPred (ix2 d j)) (bPred (ix1 j))

/-- The vocabulary projection of the joint activation: from the two projected arrays `e` [4, 256, 1024] and
    `p` [4, 64, 1024], entry (b, t, u, v) of `tanh (e[b, t, :] + p[b, u, :]) · W_out + b_out`. -/
def jointOf (e : (⟨3, ![4, 256, 1024]⟩ : Shape).Idx → EReal) (p : (⟨3, ![4, 64, 1024]⟩ : Shape).Idx → EReal)
    (wOut : (⟨2, ![1024, 1024]⟩ : Shape).Idx → EReal) (bOut : (⟨1, ![1024]⟩ : Shape).Idx → EReal)
    (b : Fin 4) (t : Fin 256) (u : Fin 64) (v : Fin 1024) : EReal :=
  (∑ j : Fin 1024, Ideal.tanh (e (ix3 b t j) + p (ix3 b u j)) * wOut (ix2 j v)) + bOut (ix1 v)

/-- The logits as one function of the eight argument arrays, index by index. -/
def logits (enc : (⟨3, ![4, 256, 512]⟩ : Shape).Idx → EReal) (pred : (⟨3, ![4, 64, 512]⟩ : Shape).Idx → EReal)
    (wEnc : (⟨2, ![512, 1024]⟩ : Shape).Idx → EReal) (bEnc : (⟨1, ![1024]⟩ : Shape).Idx → EReal)
    (wPred : (⟨2, ![512, 1024]⟩ : Shape).Idx → EReal) (bPred : (⟨1, ![1024]⟩ : Shape).Idx → EReal)
    (wOut : (⟨2, ![1024, 1024]⟩ : Shape).Idx → EReal) (bOut : (⟨1, ![1024]⟩ : Shape).Idx → EReal) :
    (⟨4, ![4, 256, 64, 1024]⟩ : Shape).Idx → EReal := fun i =>
  jointOf (fun a => encProj enc wEnc bEnc (a 0) (a 1) (a 2)) (fun a => predProj pred wPred bPred (a 0) (a 1) (a 2))
    wOut bOut (i 0) (i 1) (i 2) (i 3)

end Cert.JointSpec

end
-- ==== Proof.DenseBody.lean ====
/-
  The dense-projection kernel's body, read at one entry.

  Both projection kernels run the same body on a block of 256 rows: it loads the row block `x` [256, 512], the whole
  weight matrix `w` [512, 1024] and the bias `β` [1024], multiplies `x · w` on the matrix unit into a zero accumulator
  and adds the bias row to every row. On the extended reals the changes of float format are the identity and a matrix
  product into a zero accumulator is the plain finite sum, so entry (r, j) of what the body stores is

      (Σ_d x[r, d] · w[d, j]) + β[j],

  the dense layer's entry `JointSpec.dense` of row `r` of the block against column `j` of the weights.
-/
import proofs.«129957_j33552284516605_1_alg».proof.Proof.Gen.KernelIdeal.Skeleton
import proofs.«129957_j33552284516605_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Regions

open Cert.KernelIdeal Cert.KernelIdeal.Gen Idealize.ShloMosaic.ValueIdx

/-- The left operand's index at output entry `i` and contraction index `q` keeps `i`'s row. -/
theorem denseDot_lhs_row (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide),
    dif_pos (show (0 : Fin S256x512.rank) ∈ dot_S256x512_S512x1024_S256x1024_1_0_0_1_n_n.lhsNonContracting by decide)]
  rfl

/-- The right operand's index at output entry `i` and contraction index `q` keeps `i`'s column. -/
theorem denseDot_rhs_col (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide),
    dif_pos (show (1 : Fin S512x1024.rank) ∈ dot_S256x512_S512x1024_S256x1024_1_0_0_1_n_n.rhsNonContracting by decide)]
  rfl

/-- A [256, 512] × [512, 1024] product on the matrix unit into a zero accumulator, at entry (r, j): the sum over the
    512 contracted entries of row `r` of the left operand against column `j` of the right one. -/
theorem denseDot_apply (l : FVec Ideal S256x512 .bf16) (w : FVec Ideal S512x1024 .bf16) (r : Fin 256) (j : Fin 1024) :
    matmul (F := Ideal) dot_S256x512_S512x1024_S256x1024_1_0_0_1_n_n none l w (constant (F := Ideal) S256x1024 .f32 0x00000000#32) (ix2 r j)
      = ∑ d : Fin 512, l (ix2 r d) * w (ix2 d j) := by
  simp only [matmul]
  rw [Ideal.matmul_constant_zero_apply, ← Equiv.sum_comp (contrEquiv1 dot_S256x512_S512x1024_S256x1024_1_0_0_1_n_n 512 rfl rfl).symm]
  refine Finset.sum_congr rfl fun d _ => ?_
  have hd := contrEquiv1_symm_val dot_S256x512_S512x1024_S256x1024_1_0_0_1_n_n 512 rfl rfl d
  have el : dot_S256x512_S512x1024_S256x1024_1_0_0_1_n_n.lhsIdx (ix2 r j) ((contrEquiv1 dot_S256x512_S512x1024_S256x1024_1_0_0_1_n_n 512 rfl rfl).symm d) = ix2 r d :=
    funext fun a => Fin.ext (by
      match a with
      | ⟨0, _⟩ => exact denseDot_lhs_row _ _
      | ⟨1, _⟩ => exact (dot_S256x512_S512x1024_S256x1024_1_0_0_1_n_n.lhsIdx_val_of_single rfl _ _).trans hd)
  have er : dot_S256x512_S512x1024_S256x1024_1_0_0_1_n_n.rhsIdx (ix2 r j) ((contrEquiv1 dot_S256x512_S512x1024_S256x1024_1_0_0_1_n_n 512 rfl rfl).symm d) = ix2 d j :=
    funext fun a => Fin.ext (by
      match a with
      | ⟨0, _⟩ => exact (dot_S256x512_S512x1024_S256x1024_1_0_0_1_n_n.rhsIdx_val_of_single rfl _ _).trans hd
      | ⟨1, _⟩ => exact denseDot_rhs_col _ _)
  rw [el, er]

/-- Entry (r, j) of what the first projection kernel's body stores is the dense layer's entry of row `r` of its row
    block against column `j` of the weights, plus the bias at `j`. -/
theorem pay0_apply (x0 : Vec Ideal S256x512 .f32) (x1 : Vec Ideal S512x1024 .f32) (x2 : Vec Ideal S1024 .f32)
    (r : Fin 256) (j : Fin 1024) :
    k0_pay1 (F := Ideal) x0 x1 x2 (ix2 r j)
      = Cert.JointSpec.dense (fun d => x0 (ix2 r d)) (fun d => x1 (ix2 d j)) (x2 (ix1 j)) := by
  unfold k0_pay1 Cert.JointSpec.dense
  refine congrArg₂ (· + ·) ?_ ?_
  · refine (denseDot_apply _ _ r j).trans ?_
    refine Finset.sum_congr rfl fun d _ => ?_
    rw [shapeCast_self]
    rfl
  · refine (broadcastTo_1b_ab_apply _ _ r j).trans ?_
    exact shapeCast_a_1a_apply x2 _ 0 j

/-- The second projection kernel runs the same body. -/
theorem pay1_apply (x0 : Vec Ideal S256x512 .f32) (x1 : Vec Ideal S512x1024 .f32) (x2 : Vec Ideal S1024 .f32)
    (r : Fin 256) (j : Fin 1024) :
    k1_pay1 (F := Ideal) x0 x1 x2 (ix2 r j)
      = Cert.JointSpec.dense (fun d => x0 (ix2 r d)) (fun d => x1 (ix2 d j)) (x2 (ix1 j)) :=
  pay0_apply x0 x1 x2 r j

end Cert.KernelIdeal.Regions

end
-- ==== Proof.DenseRegions.lean ====
/-
  What the two projection kernels leave in their output arrays.

  Each is a pipelined kernel over row blocks: at grid point `t` it fetches 256 rows of its input array, the whole
  weight matrix and the whole bias, runs the dense body (`pay0_apply`: entry (r, j) of the stored block is the dense
  layer's entry of loaded row `r` against column `j`) and writes the [256, 1024] block back at row block `t`. The row
  blocks tile the output array, so after the region the array holds, at (R, j), the dense layer's entry of row `R` of the
  input array against column `j` of the weights: `JointSpec.denseRows`. Everything is stated at the contents `V` the
  region is entered with, whatever they are.
-/
import proofs.«129957_j33552284516605_1_alg».proof.Proof.Gen.KernelIdeal.Frame
import proofs.«129957_j33552284516605_1_alg».proof.Proof.DenseBody

noncomputable section

open Idealize.ShloMosaic Idealize.ShloMosaic.TcCoe Idealize.SL.Sem
open Idealize.ShloMosaic.Pipeline (Dat)

namespace Cert.KernelIdeal.Regions

open Cert.KernelIdeal Cert.KernelIdeal.Gen Idealize.ShloMosaic.ValueIdx

variable (V : (c : Dev nD) → (b : Ref sig .tc) → Buf (Elt Ideal) ((c : Thread nD τ).loc b))

/-- The zero offsets of a rank-2 whole-buffer rectangle. -/
theorem zero2 : (![0, 0] : Fin 2 → Nat) = fun _ => 0 := funext fun a => by fin_cases a <;> rfl
/-- The zero offset of a rank-1 whole-buffer rectangle. -/
theorem zero1 : (![0] : Fin 1 → Nat) = fun _ => 0 := funext fun a => by fin_cases a <;> rfl

/-! ## The encoder rows' projection (pallas_call 0: four blocks of 256 rows of a [1024, 512] array) -/

/-- The printed index maps over the grid: the input row block moves with the output row block, the weights and the
    bias stay at block 0, and the output's column block is 0. -/
theorem blocks0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 3 ∧ win0_3.index t (1 : Fin 2) = 0 :=
  (by decide +kernel : ∀ t : Fin grid0.N, _)

/-- Every row block of the output is some point's. -/
theorem blocks0_onto : ∀ q : Fin 4, ∃ t : Fin cfg0.N, win0_3.index t = ![q.val, 0] :=
  (by decide +kernel : ∀ q : Fin 4, ∃ t : Fin grid0.N, win0_3.index t = ![q.val, 0])

/-- The rows the body loads at point `t`: entry (r, d) of the input block is entry (R, d) of the region's input
    array, where `R` is the row of the output array that row `r` of the output block is written to. -/
theorem rows0_apply (c : Dev nD) (t : Fin cfg0.N) (r : Fin 256) (d : Fin 512) (R : Fin 1024)
    (hR : R.val = win0_3.index t (0 : Fin 2) * 256 + 1 * r.val) :
    iblk0 V c 0 t (ix2 r d) = V c main_v0 (ix2 R d) := by
  obtain ⟨e0, e1, -⟩ := blocks0 t
  show V c main_v0 (((cfg0.win 0).blk t).view.emb (ix2 r d)) = V c main_v0 (ix2 R d)
  refine congrArg (V c main_v0) (funext fun a => Fin.ext ?_)
  match a with
  | ⟨0, _⟩ => show win0_0.index t (0 : Fin 2) * 256 + 1 * r.val = R.val; omega
  | ⟨1, _⟩ => show win0_0.index t (1 : Fin 2) * 512 + 1 * d.val = d.val; omega

/-- The weights the body loads at any point are the whole weight array. -/
theorem weights0_apply (c : Dev nD) (t : Fin cfg0.N) (d : Fin 512) (j : Fin 1024) :
    iblk0 V c 1 t (ix2 d j) = V c main_arg2 (ix2 d j) := by
  obtain ⟨-, -, e2, e3, -⟩ := blocks0 t
  show V c main_arg2 (((cfg0.win 1).blk t).view.emb (ix2 d j)) = V c main_arg2 (ix2 d j)
  refine congrArg (V c main_arg2) (funext fun a => Fin.ext ?_)
  match a with
  | ⟨0, _⟩ => show win0_1.index t (0 : Fin 2) * 512 + 1 * d.val = d.val; omega
  | ⟨1, _⟩ => show win0_1.index t (1 : Fin 2) * 1024 + 1 * j.val = j.val; omega

/-- The bias the body loads at any point is the whole bias array. -/
theorem bias0_apply (c : Dev nD) (t : Fin cfg0.N) (j : Fin 1024) :
    iblk0 V c 2 t (ix1 j) = V c main_arg3 (ix1 j) := by
  obtain ⟨-, -, -, -, e4, -⟩ := blocks0 t
  show V c main_arg3 (((cfg0.win 2).blk t).view.emb (ix1 j)) = V c main_arg3 (ix1 j)
  refine congrArg (V c main_arg3) (funext fun a => Fin.ext ?_)
  match a with
  | ⟨0, _⟩ => show win0_2.index t (0 : Fin 1) * 1024 + 1 * j.val = j.val; omega

/-- WHAT POINT `t` WRITES BACK is block `t` of the dense layer of the region's input arrays: entry (r, j) of the
    block is the body's payload there, the dense layer's entry of the loaded row against the loaded column, and the
    loaded row is row `256·(block index) + r` of the input array. -/
theorem flushed0 (c : Dev nD) (t : Fin cfg0.N) :
    (dat0 (F := Ideal) V c).flushed 3 t
      = ((cfg0.win 3).blk t).view.read (Elt Ideal)
          (fun i => Cert.JointSpec.denseRows (R := 1024) (V c main_v0) (V c main_arg2) (V c main_arg3) (i 0) (i 1)) := by
  show (cfg0.win 3).cut (grid0.coords t) ((dat0 V c).after 3 t) = _
  rw [after0_3]
  unfold out0_3
  rw [View.canon_unit_zero zero2]
  simp only [View.ld_unit_zero (S := S256x512) zero2, View.ld_unit_zero (S := S512x1024) zero2,
    View.ld_unit_zero (S := S1024) zero1]
  funext y
  obtain ⟨r, j, rfl⟩ : ∃ (r : Fin 256) (j : Fin 1024), y = ix2 r j := ⟨y 0, y 1, eq_ix2 y⟩
  obtain ⟨-, -, -, -, -, -, e6⟩ := blocks0 t
  show k0_pay1 (iblk0 V c 0 t) (iblk0 V c 1 t) (iblk0 V c 2 t) (ix2 r j)
    = Cert.JointSpec.denseRows (R := 1024) (V c main_v0) (V c main_arg2) (V c main_arg3)
        ((((cfg0.win 3).blk t).view.emb (ix2 r j)) 0) ((((cfg0.win 3).blk t).view.emb (ix2 r j)) 1)
  refine (pay0_apply (iblk0 V c 0 t) (iblk0 V c 1 t) (iblk0 V c 2 t) r j).trans ?_
  have hcol : ((((cfg0.win 3).blk t).view.emb (ix2 r j)) 1 : Fin 1024) = j :=
    Fin.ext (by show win0_3.index t (1 : Fin 2) * 1024 + 1 * j.val = j.val; omega)
  have h1 : (fun d : Fin 512 => iblk0 V c 0 t (ix2 r d))
      = fun d => V c main_v0 (ix2 ((((cfg0.win 3).blk t).view.emb (ix2 r j)) 0 : Fin 1024) d) :=
    funext fun d => rows0_apply V c t r d _ rfl
  have h2 : (fun d : Fin 512 => iblk0 V c 1 t (ix2 d j)) = fun d => V c main_arg2 (ix2 d j) :=
    funext fun d => weights0_apply V c t d j
  unfold Cert.JointSpec.denseRows
  rw [hcol, h1, h2, bias0_apply V c t j]

/-- An index of the output array is in point `t`'s block iff each coordinate is in the block's range on its axis. -/
theorem mem_block0 (t : Fin cfg0.N) (i : S1024x1024.Idx) :
    i ∈ ((cfg0.win 3).blk t).view.set
      ↔ ∀ a : Fin 2, win0_3.index t a * S256x1024.size a ≤ (i a).val
          ∧ (i a).val < win0_3.index t a * S256x1024.size a + S256x1024.size a := by
  show i ∈ ((View.whole main_v2).slice (win0_3.rect t)).set ↔ _
  rw [View.set_slice_whole, Rect.mem_set_unit]
  exact Iff.rfl

/-- The row blocks tile the output array: row `R` is in the block of the point whose row block is `R / 256`. -/
theorem cover0 (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := blocks0_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_block0]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- THE OUTPUT ARRAY after the region: the dense layer of the region's input arrays, entry by entry. -/
theorem final0 (c : Dev nD) :
    (dat0 (F := Ideal) V c).arrAt 3 cfg0.N
      = fun i => Cert.JointSpec.denseRows (R := 1024) (V c main_v0) (V c main_arg2) (V c main_arg3) (i 0) (i 1) :=
  (dat0 (F := Ideal) V c).arrAt_eq_of_cover 3 _ (fun t _ => flushed0 V c t) cover0

/-! ## The predictor rows' projection (pallas_call 1: the one block of 256 rows of a [256, 512] array) -/

/-- The printed index maps over the grid: the input row block moves with the output row block, the weights and the
    bias stay at block 0, and the output's column block is 0. -/
theorem blocks1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 1) = 0
    ∧ win1_3.index t (0 : Fin 2) ≤ 0 ∧ win1_3.index t (1 : Fin 2) = 0 :=
  (by decide +kernel : ∀ t : Fin grid1.N, _)

/-- Every row block of the output is some point's. -/
theorem blocks1_onto : ∀ q : Fin 1, ∃ t : Fin cfg1.N, win1_3.index t = ![q.val, 0] :=
  (by decide +kernel : ∀ q : Fin 1, ∃ t : Fin grid1.N, win1_3.index t = ![q.val, 0])

/-- The rows the body loads at point `t`: entry (r, d) of the input block is entry (R, d) of the region's input
    array, where `R` is the row of the output array that row `r` of the output block is written to. -/
theorem rows1_apply (c : Dev nD) (t : Fin cfg1.N) (r : Fin 256) (d : Fin 512) (R : Fin 256)
    (hR : R.val = win1_3.index t (0 : Fin 2) * 256 + 1 * r.val) :
    iblk1 V c 0 t (ix2 r d) = V c main_v1 (ix2 R d) := by
  obtain ⟨e0, e1, -⟩ := blocks1 t
  show V c main_v1 (((cfg1.win 0).blk t).view.emb (ix2 r d)) = V c main_v1 (ix2 R d)
  refine congrArg (V c main_v1) (funext fun a => Fin.ext ?_)
  match a with
  | ⟨0, _⟩ => show win1_0.index t (0 : Fin 2) * 256 + 1 * r.val = R.val; omega
  | ⟨1, _⟩ => show win1_0.index t (1 : Fin 2) * 512 + 1 * d.val = d.val; omega

/-- The weights the body loads at any point are the whole weight array. -/
theorem weights1_apply (c : Dev nD) (t : Fin cfg1.N) (d : Fin 512) (j : Fin 1024) :
    iblk1 V c 1 t (ix2 d j) = V c main_arg4 (ix2 d j) := by
  obtain ⟨-, -, e2, e3, -⟩ := blocks1 t
  show V c main_arg4 (((cfg1.win 1).blk t).view.emb (ix2 d j)) = V c main_arg4 (ix2 d j)
  refine congrArg (V c main_arg4) (funext fun a => Fin.ext ?_)
  match a with
  | ⟨0, _⟩ => show win1_1.index t (0 : Fin 2) * 512 + 1 * d.val = d.val; omega
  | ⟨1, _⟩ => show win1_1.index t (1 : Fin 2) * 1024 + 1 * j.val = j.val; omega

/-- The bias the body loads at any point is the whole bias array. -/
theorem bias1_apply (c : Dev nD) (t : Fin cfg1.N) (j : Fin 1024) :
    iblk1 V c 2 t (ix1 j) = V c main_arg5 (ix1 j) := by
  obtain ⟨-, -, -, -, e4, -⟩ := blocks1 t
  show V c main_arg5 (((cfg1.win 2).blk t).view.emb (ix1 j)) = V c main_arg5 (ix1 j)
  refine congrArg (V c main_arg5) (funext fun a => Fin.ext ?_)
  match a with
  | ⟨0, _⟩ => show win1_2.index t (0 : Fin 1) * 1024 + 1 * j.val = j.val; omega

/-- WHAT POINT `t` WRITES BACK is block `t` of the dense layer of the region's input arrays: entry (r, j) of the
    block is the body's payload there, the dense layer's entry of the loaded row against the loaded column, and the
    loaded row is row `256·(block index) + r` of the input array. -/
theorem flushed1 (c : Dev nD) (t : Fin cfg1.N) :
    (dat1 (F := Ideal) V c).flushed 3 t
      = ((cfg1.win 3).blk t).view.read (Elt Ideal)
          (fun i => Cert.JointSpec.denseRows (R := 256) (V c main_v1) (V c main_arg4) (V c main_arg5) (i 0) (i 1)) := by
  show (cfg1.win 3).cut (grid1.coords t) ((dat1 V c).after 3 t) = _
  rw [after1_3]
  unfold out1_3
  rw [View.canon_unit_zero zero2]
  simp only [View.ld_unit_zero (S := S256x512) zero2, View.ld_unit_zero (S := S512x1024) zero2,
    View.ld_unit_zero (S := S1024) zero1]
  funext y
  obtain ⟨r, j, rfl⟩ : ∃ (r : Fin 256) (j : Fin 1024), y = ix2 r j := ⟨y 0, y 1, eq_ix2 y⟩
  obtain ⟨-, -, -, -, -, -, e6⟩ := blocks1 t
  show k1_pay1 (iblk1 V c 0 t) (iblk1 V c 1 t) (iblk1 V c 2 t) (ix2 r j)
    = Cert.JointSpec.denseRows (R := 256) (V c main_v1) (V c main_arg4) (V c main_arg5)
        ((((cfg1.win 3).blk t).view.emb (ix2 r j)) 0) ((((cfg1.win 3).blk t).view.emb (ix2 r j)) 1)
  refine (pay1_apply (iblk1 V c 0 t) (iblk1 V c 1 t) (iblk1 V c 2 t) r j).trans ?_
  have hcol : ((((cfg1.win 3).blk t).view.emb (ix2 r j)) 1 : Fin 1024) = j :=
    Fin.ext (by show win1_3.index t (1 : Fin 2) * 1024 + 1 * j.val = j.val; omega)
  have h1 : (fun d : Fin 512 => iblk1 V c 0 t (ix2 r d))
      = fun d => V c main_v1 (ix2 ((((cfg1.win 3).blk t).view.emb (ix2 r j)) 0 : Fin 256) d) :=
    funext fun d => rows1_apply V c t r d _ rfl
  have h2 : (fun d : Fin 512 => iblk1 V c 1 t (ix2 d j)) = fun d => V c main_arg4 (ix2 d j) :=
    funext fun d => weights1_apply V c t d j
  unfold Cert.JointSpec.denseRows
  rw [hcol, h1, h2, bias1_apply V c t j]

/-- An index of the output array is in point `t`'s block iff each coordinate is in the block's range on its axis. -/
theorem mem_block1 (t : Fin cfg1.N) (i : S256x1024.Idx) :
    i ∈ ((cfg1.win 3).blk t).view.set
      ↔ ∀ a : Fin 2, win1_3.index t a * S256x1024.size a ≤ (i a).val
          ∧ (i a).val < win1_3.index t a * S256x1024.size a + S256x1024.size a := by
  show i ∈ ((View.whole main_v3).slice (win1_3.rect t)).set ↔ _
  rw [View.set_slice_whole, Rect.mem_set_unit]
  exact Iff.rfl

/-- The row blocks tile the output array: row `R` is in the block of the point whose row block is `R / 256`. -/
theorem cover1 (i : S256x1024.Idx) :
    ∃ t : Fin cfg1.N, (cfg1.win 3).flush t = true ∧ i ∈ ((cfg1.win 3).blk t).view.set := by
  have hi0 : (i 0).val < 256 := (i 0).isLt
  have hi1 : (i 1).val < 1024 := (i 1).isLt
  obtain ⟨t, ht⟩ := blocks1_onto ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_block1]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 1024 ≤ (i 1).val ∧ (i 1).val < win1_3.index t (1 : Fin 2) * 1024 + 1024
    omega

/-- THE OUTPUT ARRAY after the region: the dense layer of the region's input arrays, entry by entry. -/
theorem final1 (c : Dev nD) :
    (dat1 (F := Ideal) V c).arrAt 3 cfg1.N
      = fun i => Cert.JointSpec.denseRows (R := 256) (V c main_v1) (V c main_arg4) (V c main_arg5) (i 0) (i 1) :=
  (dat1 (F := Ideal) V c).arrAt_eq_of_cover 3 _ (fun t _ => flushed1 V c t) cover1

end Cert.KernelIdeal.Regions

end
-- ==== Proof.Boundaries.lean ====
/-
  What the joint kernel finds in its four input arrays, as functions of @main's arguments.

  The buffers' contents are folded through @main's segments (the generated `Gen.W0` … `Gen.W5`). Walking that fold
  forward from the launch memory `m`:

    * the first host stretch reshapes `enc` [4, 256, 512] to rows [1024, 512] and `pred` [4, 64, 512] to rows [256, 512]
      and touches nothing else;
    * the first projection kernel replaces its output array by the dense layer of the encoder rows
      (`Regions.final0`), the second by the dense layer of the predictor rows (`Regions.final1`); neither writes the
      other's arrays, nor an argument;
    * the second host stretch reshapes the two projected arrays to [4, 256, 1024] and [4, 64, 1024] and changes the float
      format of `W_out`, which on the extended reals is the identity.

  So the joint kernel is entered with: the reshaped dense layer of the reshaped `enc`; the reshaped dense layer of the
  reshaped `pred`; `W_out` itself; `b_out` itself.
-/
import proofs.«129957_j33552284516605_1_alg».proof.Proof.Gen.KernelIdeal.Frame
import proofs.«129957_j33552284516605_1_alg».proof.Proof.DenseRegions
import Idealize.ShloMosaic.Lib.StableHlo.Run
import Idealize.ShloMosaic.PureOps.Ideal

noncomputable section

open Idealize.ShloMosaic Idealize.ShloMosaic.TcCoe Idealize.SL.Sem

namespace Cert.KernelIdeal.Boundaries

open Cert.KernelIdeal Cert.KernelIdeal.Gen

variable (m : (ℓ : Loc nD τ sig) → Buf (Elt Ideal) ℓ) (ρ : Dev nD → PrngReg)

/-! ## After the first host stretch: the first projection kernel's inputs -/

/-- The encoder rows: `enc` reshaped [4, 256, 512] → [1024, 512]. -/
theorem enc_rows (c : Dev nD) :
    (V1 m ρ c main_v0 : S1024x512.Idx → EReal)
      = shapeCast S1024x512 (m ((c : Thread nD τ).loc main_arg0)) shapeCasts_S4x256x512_S1024x512 := by
  dsimp only [V1, W1, W0, hostOps0]
  after_results
  rfl

/-- The encoder's weights and bias are the arguments. -/
theorem enc_weights (c : Dev nD) : V1 m ρ c main_arg2 = m ((c : Thread nD τ).loc main_arg2) := by
  dsimp only [V1, W1, W0, hostOps0]
  after_results
theorem enc_bias (c : Dev nD) : V1 m ρ c main_arg3 = m ((c : Thread nD τ).loc main_arg3) := by
  dsimp only [V1, W1, W0, hostOps0]
  after_results

/-! ## After the first projection kernel: the second one's inputs -/

/-- The predictor rows: `pred` reshaped [4, 64, 512] → [256, 512]; the first kernel does not write them. -/
theorem pred_rows (c : Dev nD) :
    (V2 m ρ c main_v1 : S256x512.Idx → EReal)
      = shapeCast S256x512 (m ((c : Thread nD τ).loc main_arg1)) shapeCasts_S4x64x512_S256x512 := by
  refine (W2_of_ne m ρ c main_v1 (by decide)).trans ?_
  dsimp only [W1, W0, hostOps0]
  after_results
  rfl

/-- The predictor's weights and bias are the arguments. -/
theorem pred_weights (c : Dev nD) : V2 m ρ c main_arg4 = m ((c : Thread nD τ).loc main_arg4) := by
  refine (W2_of_ne m ρ c main_arg4 (by decide)).trans ?_
  dsimp only [W1, W0, hostOps0]
  after_results
theorem pred_bias (c : Dev nD) : V2 m ρ c main_arg5 = m ((c : Thread nD τ).loc main_arg5) := by
  refine (W2_of_ne m ρ c main_arg5 (by decide)).trans ?_
  dsimp only [W1, W0, hostOps0]
  after_results

/-! ## After both projection kernels -/

/-- The first kernel's output array, still there after the second: the dense layer of the encoder rows. -/
theorem enc_projected (c : Dev nD) :
    (V3 m ρ c main_v2 : S1024x1024.Idx → EReal)
      = fun a => Cert.JointSpec.denseRows (R := 1024)
          (shapeCast S1024x512 (m ((c : Thread nD τ).loc main_arg0)) shapeCasts_S4x256x512_S1024x512)
          (m ((c : Thread nD τ).loc main_arg2)) (m ((c : Thread nD τ).loc main_arg3)) (a 0) (a 1) := by
  refine (W3_of_ne m ρ c main_v2 (by decide)).trans ?_
  refine (W2_arr m ρ c 3).trans ?_
  rw [Regions.final0 (V1 m ρ) c, enc_rows m ρ c, enc_weights m ρ c, enc_bias m ρ c]

/-- The second kernel's output array: the dense layer of the predictor rows. -/
theorem pred_projected (c : Dev nD) :
    (V3 m ρ c main_v3 : S256x1024.Idx → EReal)
      = fun a => Cert.JointSpec.denseRows (R := 256)
          (shapeCast S256x512 (m ((c : Thread nD τ).loc main_arg1)) shapeCasts_S4x64x512_S256x512)
          (m ((c : Thread nD τ).loc main_arg4)) (m ((c : Thread nD τ).loc main_arg5)) (a 0) (a 1) := by
  refine (W3_arr m ρ c 3).trans ?_
  rw [Regions.final1 (V2 m ρ) c, pred_rows m ρ c, pred_weights m ρ c, pred_bias m ρ c]

/-- Neither projection kernel nor the first host stretch writes `W_out` or `b_out`. -/
theorem out_weights_kept (c : Dev nD) : V3 m ρ c main_arg6 = m ((c : Thread nD τ).loc main_arg6) := by
  refine (W3_of_ne m ρ c main_arg6 (by decide)).trans ?_
  refine (W2_of_ne m ρ c main_arg6 (by decide)).trans ?_
  dsimp only [W1, W0, hostOps0]
  after_results
theorem out_bias_kept (c : Dev nD) : V3 m ρ c main_arg7 = m ((c : Thread nD τ).loc main_arg7) := by
  refine (W3_of_ne m ρ c main_arg7 (by decide)).trans ?_
  refine (W2_of_ne m ρ c main_arg7 (by decide)).trans ?_
  dsimp only [W1, W0, hostOps0]
  after_results

/-! ## After the second host stretch: the joint kernel's inputs -/

/-- The encoder's projection as the joint kernel finds it: reshaped [1024, 1024] → [4, 256, 1024]. -/
theorem joint_enc (c : Dev nD) :
    (V4 m ρ c main_v4 : S4x256x1024.Idx → EReal)
      = shapeCast S4x256x1024
          (fun a : S1024x1024.Idx => Cert.JointSpec.denseRows (R := 1024)
            (shapeCast S1024x512 (m ((c : Thread nD τ).loc main_arg0)) shapeCasts_S4x256x512_S1024x512)
            (m ((c : Thread nD τ).loc main_arg2)) (m ((c : Thread nD τ).loc main_arg3)) (a 0) (a 1))
          shapeCasts_S1024x1024_S4x256x1024 := by
  have reshaped : (V4 m ρ c main_v4 : S4x256x1024.Idx → EReal)
      = shapeCast S4x256x1024 (V3 m ρ c main_v2) shapeCasts_S1024x1024_S4x256x1024 := by
    dsimp only [V4, W4, hostOps2]
    after_results
    rfl
  exact reshaped.trans
    (congrArg (fun x : S1024x1024.Idx → EReal => shapeCast S4x256x1024 x shapeCasts_S1024x1024_S4x256x1024)
      (enc_projected m ρ c))

/-- The predictor's projection as the joint kernel finds it: reshaped [256, 1024] → [4, 64, 1024]. -/
theorem joint_pred (c : Dev nD) :
    (V4 m ρ c main_v5 : S4x64x1024.Idx → EReal)
      = shapeCast S4x64x1024
          (fun a : S256x1024.Idx => Cert.JointSpec.denseRows (R := 256)
            (shapeCast S256x512 (m ((c : Thread nD τ).loc main_arg1)) shapeCasts_S4x64x512_S256x512)
            (m ((c : Thread nD τ).loc main_arg4)) (m ((c : Thread nD τ).loc main_arg5)) (a 0) (a 1))
          shapeCasts_S256x1024_S4x64x1024 := by
  have reshaped : (V4 m ρ c main_v5 : S4x64x1024.Idx → EReal)
      = shapeCast S4x64x1024 (V3 m ρ c main_v3) shapeCasts_S256x1024_S4x64x1024 := by
    dsimp only [V4, W4, hostOps2]
    after_results
    rfl
  exact reshaped.trans
    (congrArg (fun x : S256x1024.Idx → EReal => shapeCast S4x64x1024 x shapeCasts_S256x1024_S4x64x1024)
      (pred_projected m ρ c))

/-- The output weights as the joint kernel finds them: `W_out`, its change of float format the identity. -/
theorem joint_weights (c : Dev nD) :
    (V4 m ρ c main_v6 : S1024x1024.Idx → EReal) = m ((c : Thread nD τ).loc main_arg6) := by
  rw [← out_weights_kept m ρ c]
  dsimp only [V4, W4, hostOps2]
  after_results
  rfl

/-- The output bias as the joint kernel finds it: `b_out`. -/
theorem joint_bias (c : Dev nD) : V4 m ρ c main_arg7 = m ((c : Thread nD τ).loc main_arg7) := by
  rw [← out_bias_kept m ρ c]
  dsimp only [V4, W4, hostOps2]
  after_results

end Cert.KernelIdeal.Boundaries

end
-- ==== Proof.JointRegion.lean ====
import proofs.«129957_j33552284516605_1_alg».proof.Proof.Gen.KernelIdeal.Frame
import proofs.«129957_j33552284516605_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the fused joint kernel leaves in its output array

The third launch of the program runs on a grid of 4 × 8 points. At point (b, ti) its body loads a block of 32
encoder rows `e[b, 32·ti + t', :]`, the 64 predictor rows `p[b, u, :]`, the whole matrix `W_out` and the
bias row `b_out`; it forms the 2048 × 1024 matrix whose row `64·t' + u` is `tanh (e[b, 32·ti + t', :] + p[b, u, :])`,
multiplies it by `W_out` into a zero accumulator, adds the bias to every row, and stores the result, row `64·t' + u`
going to position (t', u) of the output block.

This module reads that off in two steps. `pay2_apply` is the body's arithmetic at one entry of the block it
stores: the matrix product into a zero accumulator is the plain sum over the joint dimension (`0 + s = s`, the one
law used, so no entry needs to be finite), and the two reshapes only rename row `64·t' + u` as the pair (t', u).
`final2` then says that, the 32 blocks tiling the output array, the array ends as the function `jointOf` of the
four arrays the launch reads, index by index.
-/

noncomputable section

open Idealize.ShloMosaic Idealize.ShloMosaic.TcCoe Idealize.SL.Sem
open Idealize.ShloMosaic.Pipeline (Dat)

namespace Cert.KernelIdeal.Regions

open Cert.KernelIdeal Cert.KernelIdeal.Gen Idealize.ShloMosaic.ValueIdx

variable (V : (c : Dev nD) → (b : Ref sig .tc) → Buf (Elt Ideal) ((c : Thread nD τ).loc b))

/-! ## The body's layout operations, each read at one entry -/

section Layout
variable {α : Type}

/-- Rows regrouped: a `[2048, 1024]` array viewed as `[32, 64, 1024]` reads, at `(t, u, v)`, row `64·t + u`. -/
theorem joint2_unflatten_apply (x : (⟨2, ![2048, 1024]⟩ : Shape).Idx → α)
    (h : (⟨2, ![2048, 1024]⟩ : Shape).ShapeCasts ⟨3, ![32, 64, 1024]⟩) (t : Fin 32) (u : Fin 64) (v : Fin 1024)
    (r : Fin 2048) (hr : r.val = 64 * t.val + u.val) :
    shapeCast ⟨3, ![32, 64, 1024]⟩ x h (ix3 t u v) = x (ix2 r v) :=
  shapeCast_apply x h _ _ (by
    rw [Shape.rowMajor_val_three, Shape.rowMajor_val_two]
    show r.val * 1024 + v.val = (t.val * 64 + u.val) * 1024 + v.val
    rw [hr, Nat.mul_comm 64 t.val])

/-- Rows flattened: a `[32, 64, 1024]` array viewed as `[2048, 1024]` reads, at row `64·t + u`, the pair `(t, u)`. -/
theorem joint2_flatten_apply (x : (⟨3, ![32, 64, 1024]⟩ : Shape).Idx → α)
    (h : (⟨3, ![32, 64, 1024]⟩ : Shape).ShapeCasts ⟨2, ![2048, 1024]⟩) (t : Fin 32) (u : Fin 64) (j : Fin 1024)
    (r : Fin 2048) (hr : r.val = 64 * t.val + u.val) :
    shapeCast ⟨2, ![2048, 1024]⟩ x h (ix2 r j) = x (ix3 t u j) :=
  shapeCast_apply x h _ _ (by
    rw [Shape.rowMajor_val_three, Shape.rowMajor_val_two]
    show (t.val * 64 + u.val) * 1024 + j.val = r.val * 1024 + j.val
    rw [hr, Nat.mul_comm 64 t.val])

/-- A unit middle axis inserted: a `[32, 1024]` array viewed as `[32, 1, 1024]` reads, at `(t, z, j)`, the entry `(t, j)`. -/
theorem joint2_midUnit_apply (x : (⟨2, ![32, 1024]⟩ : Shape).Idx → α)
    (h : (⟨2, ![32, 1024]⟩ : Shape).ShapeCasts ⟨3, ![32, 1, 1024]⟩) (t : Fin 32) (z : Fin 1) (j : Fin 1024) :
    shapeCast ⟨3, ![32, 1, 1024]⟩ x h (ix3 t z j) = x (ix2 t j) :=
  shapeCast_apply x h _ _ (by
    have hz : z.val = 0 := by omega
    rw [Shape.rowMajor_val_three, Shape.rowMajor_val_two]
    show t.val * 1024 + j.val = (t.val * 1 + z.val) * 1024 + j.val
    rw [hz, Nat.mul_one, Nat.add_zero])

/-- The encoder rows repeated along the predictor axis: `[32, 1, 1024]` broadcast to `[32, 64, 1024]` reads, at
    `(t, u, j)`, the entry `(t, 0, j)`. -/
theorem joint2_bcastEnc_apply (x : (⟨3, ![32, 1, 1024]⟩ : Shape).Idx → α)
    (h : (⟨3, ![32, 1, 1024]⟩ : Shape).Broadcasts ⟨3, ![32, 64, 1024]⟩) (t : Fin 32) (u : Fin 64) (j : Fin 1024) :
    broadcastTo ⟨3, ![32, 64, 1024]⟩ x h (ix3 t u j) = x (ix3 t (0 : Fin 1) j) := by
  refine broadcastTo_apply x h (ix3 t u j) (ix3 t (0 : Fin 1) j) fun ax => ?_
  match ax with
  | ⟨0, _⟩ => rfl
  | ⟨1, _⟩ => rfl
  | ⟨2, _⟩ => rfl

/-- The predictor rows repeated along the time axis: `[1, 64, 1024]` broadcast to `[32, 64, 1024]` reads, at
    `(t, u, j)`, the entry `(0, u, j)`. -/
theorem joint2_bcastPred_apply (x : (⟨3, ![1, 64, 1024]⟩ : Shape).Idx → α)
    (h : (⟨3, ![1, 64, 1024]⟩ : Shape).Broadcasts ⟨3, ![32, 64, 1024]⟩) (t : Fin 32) (u : Fin 64) (j : Fin 1024) :
    broadcastTo ⟨3, ![32, 64, 1024]⟩ x h (ix3 t u j) = x (ix3 (0 : Fin 1) u j) := by
  refine broadcastTo_apply x h (ix3 t u j) (ix3 (0 : Fin 1) u j) fun ax => ?_
  match ax with
  | ⟨0, _⟩ => rfl
  | ⟨1, _⟩ => rfl
  | ⟨2, _⟩ => rfl

end Layout

/-! ## The matrix product into a zero accumulator -/

/-- Entry `(r, v)` of the body's matrix product: the accumulator is the zero matrix, so the entry is the plain sum,
    over the joint dimension, of row `r` of the left factor against column `v` of the right one. The product's
    contraction index has one axis of extent 1024; the sum is re-indexed along the bijection with `Fin 1024`. -/
theorem joint2_matmul_apply (a : FVec Ideal S2048x1024 .bf16) (w : FVec Ideal S1024x1024 .bf16) (r : Fin 2048) (v : Fin 1024) :
    matmul (F := Ideal) dot_S2048x1024_S1024x1024_S2048x1024_1_0_0_1_n_n none a w
        (constant (F := Ideal) S2048x1024 .f32 0x00000000#32) (ix2 r v)
      = ∑ j : Fin 1024, a (ix2 r j) * w (ix2 j v) := by
  refine (Ideal.matmul_constant_zero_apply dot_S2048x1024_S1024x1024_S2048x1024_1_0_0_1_n_n none a w (ix2 r v)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r v)
      ((contrEquiv1 dot_S2048x1024_S1024x1024_S2048x1024_1_0_0_1_n_n 1024 rfl rfl).symm k) = ix2 r k :=
    funext fun ax => Fin.ext (by
      match ax with
      | ⟨0, _⟩ =>
        show (dot_S2048x1024_S1024x1024_S2048x1024_1_0_0_1_n_n.lhsIdx (ix2 r v) _ 0).val = r.val
        unfold DotDims.lhsIdx
        rw [dif_neg (show ¬(0 : Fin S2048x1024.rank) ∈ dot_S2048x1024_S1024x1024_S2048x1024_1_0_0_1_n_n.lhsBatch by decide),
          dif_pos (show (0 : Fin S2048x1024.rank) ∈ dot_S2048x1024_S1024x1024_S2048x1024_1_0_0_1_n_n.lhsNonContracting by decide)]
        rfl
      | ⟨1, _⟩ =>
        exact (dot_S2048x1024_S1024x1024_S2048x1024_1_0_0_1_n_n.lhsIdx_val_of_single rfl (ix2 r v) _).trans hk)
  have er : dot_S2048x1024_S1024x1024_S2048x1024_1_0_0_1_n_n.rhsIdx (ix2 r v)
      ((contrEquiv1 dot_S2048x1024_S1024x1024_S2048x1024_1_0_0_1_n_n 1024 rfl rfl).symm k) = ix2 k v :=
    funext fun ax => Fin.ext (by
      match ax with
      | ⟨0, _⟩ =>
        exact (dot_S2048x1024_S1024x1024_S2048x1024_1_0_0_1_n_n.rhsIdx_val_of_single rfl (ix2 r v) _).trans hk
      | ⟨1, _⟩ =>
        show (dot_S2048x1024_S1024x1024_S2048x1024_1_0_0_1_n_n.rhsIdx (ix2 r v) _ 1).val = v.val
        unfold DotDims.rhsIdx
        rw [dif_neg (show ¬(1 : Fin S1024x1024.rank) ∈ dot_S2048x1024_S1024x1024_S2048x1024_1_0_0_1_n_n.rhsBatch by decide),
          dif_pos (show (1 : Fin S1024x1024.rank) ∈ dot_S2048x1024_S1024x1024_S2048x1024_1_0_0_1_n_n.rhsNonContracting by decide)]
        rfl)
  rw [el, er]

/-! ## The body's arithmetic at one entry of the block it stores -/

/-- The left factor of the product at row `64·t + u`, column `j`: the hyperbolic tangent of the encoder block's entry
    `(t, j)` plus the predictor block's entry `(u, j)`. The narrowing to the matrix unit's input format is the identity
    on extended reals; every other step is a re-indexing. -/
theorem joint2_act_apply (x0 : Vec Ideal S1x32x1024 .f32) (x1 : Vec Ideal S1x64x1024 .f32) (t : Fin 32) (u : Fin 64)
    (j : Fin 1024) (r : Fin 2048) (hr : r.val = 64 * t.val + u.val) :
    shapeCast S2048x1024
        (truncf (F := Ideal) .bf16
          (tanh (F := Ideal)
            (addf (F := Ideal)
              (broadcastTo S32x64x1024 (shapeCast S32x1x1024 (shapeCast S32x1024 x0 shapeCasts_S1x32x1024_S32x1024)
                shapeCasts_S32x1024_S32x1x1024) broadcasts_S32x1x1024_S32x64x1024)
              (broadcastTo S32x64x1024 (shapeCast S1x64x1024 (shapeCast S64x1024 x1 shapeCasts_S1x64x1024_S64x1024)
                shapeCasts_S64x1024_S1x64x1024) broadcasts_S1x64x1024_S32x64x1024)))
          bitsLt_bf16_f32)
        shapeCasts_S32x64x1024_S2048x1024 (ix2 r j)
      = Ideal.tanh (x0 (ix3 (0 : Fin 1) t j) + x1 (ix3 (0 : Fin 1) u j)) := by
  refine (joint2_flatten_apply _ shapeCasts_S32x64x1024_S2048x1024 t u j r hr).trans ?_
  -- the narrowing, the tangent and the sum act entry by entry
  show Ideal.tanh (broadcastTo S32x64x1024 _ broadcasts_S32x1x1024_S32x64x1024 (ix3 t u j)
      + broadcastTo S32x64x1024 _ broadcasts_S1x64x1024_S32x64x1024 (ix3 t u j)) = _
  have he : broadcastTo S32x64x1024 (shapeCast S32x1x1024 (shapeCast S32x1024 x0 shapeCasts_S1x32x1024_S32x1024)
      shapeCasts_S32x1024_S32x1x1024) broadcasts_S32x1x1024_S32x64x1024 (ix3 t u j) = x0 (ix3 (0 : Fin 1) t j) :=
    (joint2_bcastEnc_apply _ broadcasts_S32x1x1024_S32x64x1024 t u j).trans
      ((joint2_midUnit_apply _ shapeCasts_S32x1024_S32x1x1024 t 0 j).trans
        (shapeCast_1ab_ab_apply x0 shapeCasts_S1x32x1024_S32x1024 t j))
  have hp : broadcastTo S32x64x1024 (shapeCast S1x64x1024 (shapeCast S64x1024 x1 shapeCasts_S1x64x1024_S64x1024)
      shapeCasts_S64x1024_S1x64x1024) broadcasts_S1x64x1024_S32x64x1024 (ix3 t u j) = x1 (ix3 (0 : Fin 1) u j) :=
    (joint2_bcastPred_apply _ broadcasts_S1x64x1024_S32x64x1024 t u j).trans
      ((shapeCast_ab_1ab_apply _ shapeCasts_S64x1024_S1x64x1024 0 u j).trans
        (shapeCast_1ab_ab_apply x1 shapeCasts_S1x64x1024_S64x1024 u j))
  rw [he, hp]

/-- Entry (0, t, u, v) of the block the joint kernel's body stores, from its four loads: the sum over the joint
    dimension of tanh (encoder block's row `t` + predictor block's row `u`) against column `v` of `W_out`, plus the bias at
    `v`. The stored block's leading unit axis and the regrouping of row `64·t + u` as the pair (t, u) are re-indexings;
    the product into the zero accumulator is the plain sum; the bias row is the same for every row. -/
theorem pay2_apply (x0 : Vec Ideal S1x32x1024 .f32) (x1 : Vec Ideal S1x64x1024 .f32) (x2 : Vec Ideal S1024x1024 .bf16)
    (x3 : Vec Ideal S1024 .f32) (t : Fin 32) (u : Fin 64) (v : Fin 1024) :
    k2_pay1 (F := Ideal) x0 x1 x2 x3 (ix4 (0 : Fin 1) t u v)
      = (∑ j : Fin 1024, Ideal.tanh (x0 (ix3 (0 : Fin 1) t j) + x1 (ix3 (0 : Fin 1) u j)) * x2 (ix2 j v)) + x3 (ix1 v) := by
  have hr : (⟨64 * t.val + u.val, by omega⟩ : Fin 2048).val = 64 * t.val + u.val := rfl
  unfold k2_pay1
  -- the stored block's leading unit axis, then rows `64·t + u` regrouped as `(t, u)`
  refine (shapeCast_abc_1abc_apply _ shapeCasts_S32x64x1024_S1x32x64x1024 (0 : Fin 1) t u v).trans ?_
  refine (joint2_unflatten_apply _ shapeCasts_S2048x1024_S32x64x1024 t u v ⟨64 * t.val + u.val, by omega⟩ hr).trans ?_
  -- the product plus the bias row, entry by entry
  refine congrArg₂ (· + ·) ?_ ?_
  · refine (joint2_matmul_apply _ _ ⟨64 * t.val + u.val, by omega⟩ v).trans ?_
    refine Finset.sum_congr rfl fun j _ => ?_
    rw [joint2_act_apply x0 x1 t u j ⟨64 * t.val + u.val, by omega⟩ hr, shapeCast_self]
  · exact (broadcastTo_1b_ab_apply _ broadcasts_S1x1024_S2048x1024 ⟨64 * t.val + u.val, by omega⟩ v).trans
      (shapeCast_a_1a_apply x3 shapeCasts_S1024_S1x1024 0 v)

/-! ## From the 32 blocks to the array -/

/-- The body's arithmetic at one entry of the stored block, when the four loaded blocks are the blocks of arrays
    `A` (encoder projection), `B` (predictor projection), `C` (`W_out`) and `D` (`b_out`) that sit at batch `b` and at
    time `τ`: it is the specification's `jointOf` of the four arrays at `(b, τ, u, v)`. -/
theorem joint2_pay_eq_jointOf (A : S4x256x1024.Idx → EReal) (B : S4x64x1024.Idx → EReal) (C : S1024x1024.Idx → EReal)
    (D : S1024.Idx → EReal) (x0 : Vec Ideal S1x32x1024 .f32) (x1 : Vec Ideal S1x64x1024 .f32)
    (x2 : Vec Ideal S1024x1024 .bf16) (x3 : Vec Ideal S1024 .f32)
    (b : Fin 4) (τ : Fin 256) (t : Fin 32) (u : Fin 64) (v : Fin 1024)
    (h0 : ∀ j : Fin 1024, x0 (ix3 (0 : Fin 1) t j) = A (ix3 b τ j))
    (h1 : ∀ j : Fin 1024, x1 (ix3 (0 : Fin 1) u j) = B (ix3 b u j))
    (h2 : ∀ j : Fin 1024, x2 (ix2 j v) = C (ix2 j v))
    (h3 : x3 (ix1 v) = D (ix1 v)) :
    k2_pay1 (F := Ideal) x0 x1 x2 x3 (ix4 (0 : Fin 1) t u v) = Cert.JointSpec.jointOf A B C D b τ u v := by
  refine (pay2_apply x0 x1 x2 x3 t u v).trans ?_
  unfold Cert.JointSpec.jointOf
  refine congrArg₂ (· + ·) (Finset.sum_congr rfl fun j _ => ?_) h3
  rw [h0 j, h1 j, h2 j]

/-- The zero offsets of the whole-buffer rectangles of rank 4, 3, 2 and 1, as constant functions. -/
theorem joint2_zero4 : (![0, 0, 0, 0] : Fin 4 → Nat) = fun _ => 0 := funext fun a => by fin_cases a <;> rfl
theorem joint2_zero3 : (![0, 0, 0] : Fin 3 → Nat) = fun _ => 0 := funext fun a => by fin_cases a <;> rfl
theorem joint2_zero2 : (![0, 0] : Fin 2 → Nat) = fun _ => 0 := funext fun a => by fin_cases a <;> rfl
theorem joint2_zero1 : (![0] : Fin 1 → Nat) = fun _ => 0 := funext fun a => by fin_cases a <;> rfl

/-- The printed index maps, decided once over the 32 grid points: the output block of a point is `(b, ti, 0, 0)`
    with `b < 4` and `ti < 8`; the encoder block is `(b, ti, 0)`, the predictor block `(b, 0, 0)`, and the blocks of
    `W_out` and `b_out` are the whole arrays. -/
theorem joint2_index_facts : ∀ t : Fin cfg2.N,
    win2_0.index t (0 : Fin 3) = win2_4.index t (0 : Fin 4)
    ∧ win2_0.index t (1 : Fin 3) = win2_4.index t (1 : Fin 4)
    ∧ win2_0.index t (2 : Fin 3) = 0
    ∧ win2_1.index t (0 : Fin 3) = win2_4.index t (0 : Fin 4)
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 1) = 0
    ∧ win2_4.index t (2 : Fin 4) = 0
    ∧ win2_4.index t (3 : Fin 4) = 0
    ∧ win2_4.index t (0 : Fin 4) < 4
    ∧ win2_4.index t (1 : Fin 4) < 8 :=
  (by decide +kernel : ∀ t : Fin grid2.N, _)

/-- Every pair `(b, ti)` is the output block of some grid point. -/
theorem joint2_index_onto : ∀ (q0 : Fin 4) (q1 : Fin 8), ∃ t : Fin cfg2.N, win2_4.index t = ![q0.val, q1.val, 0, 0] :=
  (by decide +kernel : ∀ (q0 : Fin 4) (q1 : Fin 8), ∃ t : Fin grid2.N, win2_4.index t = ![q0.val, q1.val, 0, 0])

/-- What grid point `t` writes back is block `t` of `jointOf` of the four arrays the launch reads, as the launch
    finds them. -/
theorem joint2_flushed_eq (c : Dev nD) (t : Fin cfg2.N) :
    (dat2 (F := Ideal) V c).flushed 4 t = ((cfg2.win 4).blk t).view.read (Elt Ideal)
      (fun i => Cert.JointSpec.jointOf (V c main_v4) (V c main_v5) (V c main_v6) (V c main_arg7) (i 0) (i 1) (i 2) (i 3)) := by
  show (cfg2.win 4).cut (grid2.coords t) ((dat2 V c).after 4 t) = _
  rw [after2_4]
  unfold out2_4
  rw [View.canon_unit_zero joint2_zero4]
  simp only [View.ld_unit_zero (S := S1x32x1024) joint2_zero3, View.ld_unit_zero (S := S1x64x1024) joint2_zero3,
    View.ld_unit_zero (S := S1024x1024) joint2_zero2, View.ld_unit_zero (S := S1024) joint2_zero1]
  obtain ⟨f00, f01, f02, f10, f11, f12, f20, f21, f30, f42, f43, hb, hti⟩ := joint2_index_facts t
  funext (y : S1x32x64x1024.Idx)
  obtain ⟨z, t', u, v, rfl⟩ : ∃ (z : Fin 1) (t' : Fin 32) (u : Fin 64) (v : Fin 1024), y = ix4 z t' u v :=
    ⟨y 0, y 1, y 2, y 3, eq_ix4 y⟩
  obtain rfl : z = 0 := Subsingleton.elim _ _
  -- the entry's position in the array: batch `b`, time `32·ti + t'`
  have ht' : t'.val < 32 := t'.isLt
  have hu : u.val < 64 := u.isLt
  have hv : v.val < 1024 := v.isLt
  have hτ : win2_4.index t (1 : Fin 4) * 32 + t'.val < 256 := by omega
  refine (joint2_pay_eq_jointOf (V c main_v4) (V c main_v5) (V c main_v6) (V c main_arg7)
    (iblk2 V c 0 t) (iblk2 V c 1 t) (iblk2 V c 2 t) (iblk2 V c 3 t)
    ⟨win2_4.index t (0 : Fin 4), hb⟩ ⟨win2_4.index t (1 : Fin 4) * 32 + t'.val, hτ⟩ t' u v ?_ ?_ ?_ ?_).trans ?_
  · -- the encoder block sits at batch `b`, rows `32·ti …`
    intro j
    have hj : j.val < 1024 := j.isLt
    show V c main_v4 (((cfg2.win 0).blk t).view.emb (ix3 (0 : Fin 1) t' j)) = V c main_v4 _
    refine congrArg (V c main_v4) (funext fun a => Fin.ext ?_)
    match a with
    | ⟨0, _⟩ => show win2_0.index t (0 : Fin 3) * 1 + 1 * 0 = win2_4.index t (0 : Fin 4); omega
    | ⟨1, _⟩ => show win2_0.index t (1 : Fin 3) * 32 + 1 * t'.val = win2_4.index t (1 : Fin 4) * 32 + t'.val; omega
    | ⟨2, _⟩ => show win2_0.index t (2 : Fin 3) * 1024 + 1 * j.val = j.val; omega
  · -- the predictor block is all of batch `b`
    intro j
    have hj : j.val < 1024 := j.isLt
    show V c main_v5 (((cfg2.win 1).blk t).view.emb (ix3 (0 : Fin 1) u j)) = V c main_v5 _
    refine congrArg (V c main_v5) (funext fun a => Fin.ext ?_)
    match a with
    | ⟨0, _⟩ => show win2_1.index t (0 : Fin 3) * 1 + 1 * 0 = win2_4.index t (0 : Fin 4); omega
    | ⟨1, _⟩ => show win2_1.index t (1 : Fin 3) * 64 + 1 * u.val = u.val; omega
    | ⟨2, _⟩ => show win2_1.index t (2 : Fin 3) * 1024 + 1 * j.val = j.val; omega
  · -- the block of `W_out` is the whole matrix
    intro j
    have hj : j.val < 1024 := j.isLt
    show V c main_v6 (((cfg2.win 2).blk t).view.emb (ix2 j v)) = V c main_v6 _
    refine congrArg (V c main_v6) (funext fun a => Fin.ext ?_)
    match a with
    | ⟨0, _⟩ => show win2_2.index t (0 : Fin 2) * 1024 + 1 * j.val = j.val; omega
    | ⟨1, _⟩ => show win2_2.index t (1 : Fin 2) * 1024 + 1 * v.val = v.val; omega
  · -- the block of `b_out` is the whole row
    show V c main_arg7 (((cfg2.win 3).blk t).view.emb (ix1 v)) = V c main_arg7 _
    refine congrArg (V c main_arg7) (funext fun a => Fin.ext ?_)
    match a with
    | ⟨0, _⟩ => show win2_3.index t (0 : Fin 1) * 1024 + 1 * v.val = v.val; omega
  · -- and the output block's entry `(0, t', u, v)` is the array's entry `(b, 32·ti + t', u, v)`
    have e0 : @Eq (Fin 4) (((cfg2.win 4).blk t).view.emb (ix4 (0 : Fin 1) t' u v) 0) ⟨win2_4.index t (0 : Fin 4), hb⟩ :=
      Fin.ext (by show win2_4.index t (0 : Fin 4) * 1 + 1 * 0 = win2_4.index t (0 : Fin 4); omega)
    have e1 : @Eq (Fin 256) (((cfg2.win 4).blk t).view.emb (ix4 (0 : Fin 1) t' u v) 1)
        ⟨win2_4.index t (1 : Fin 4) * 32 + t'.val, hτ⟩ :=
      Fin.ext (by show win2_4.index t (1 : Fin 4) * 32 + 1 * t'.val = win2_4.index t (1 : Fin 4) * 32 + t'.val; omega)
    have e2 : @Eq (Fin 64) (((cfg2.win 4).blk t).view.emb (ix4 (0 : Fin 1) t' u v) 2) u :=
      Fin.ext (by show win2_4.index t (2 : Fin 4) * 64 + 1 * u.val = u.val; omega)
    have e3 : @Eq (Fin 1024) (((cfg2.win 4).blk t).view.emb (ix4 (0 : Fin 1) t' u v) 3) v :=
      Fin.ext (by show win2_4.index t (3 : Fin 4) * 1024 + 1 * v.val = v.val; omega)
    exact (congr (congr (congr (congrArg
      (Cert.JointSpec.jointOf (V c main_v4) (V c main_v5) (V c main_v6) (V c main_arg7)) e0) e1) e2) e3).symm

/-- An index of the output array is in grid point `t`'s block iff each coordinate is in the block's range on its axis. -/
theorem joint2_mem_blk (t : Fin cfg2.N) (i : S4x256x64x1024.Idx) :
    i ∈ ((cfg2.win 4).blk t).view.set ↔ ∀ a : Fin 4, win2_4.index t a * S1x32x64x1024.size a ≤ (i a).val
      ∧ (i a).val < win2_4.index t a * S1x32x64x1024.size a + S1x32x64x1024.size a := by
  show i ∈ ((View.whole main_v7).slice (win2_4.rect t)).set ↔ _
  rw [View.set_slice_whole, Rect.mem_set_unit]
  exact Iff.rfl

/-- The 32 blocks tile the output array: entry `(b, τ, u, v)` lies in the block of the point whose output block is
    `(b, τ / 32, 0, 0)`, and every point writes its block back. -/
theorem joint2_cover (i : S4x256x64x1024.Idx) :
    ∃ t : Fin cfg2.N, (cfg2.win 4).flush t = true ∧ i ∈ ((cfg2.win 4).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := joint2_index_onto ⟨(i 0).val, hi0⟩ ⟨(i 1).val / 32, by omega⟩
  have q0 : win2_4.index t (0 : Fin 4) = (i 0).val := congrFun ht 0
  have q1 : win2_4.index t (1 : Fin 4) = (i 1).val / 32 := congrFun ht 1
  have q2 : win2_4.index t (2 : Fin 4) = 0 := congrFun ht 2
  have q3 : win2_4.index t (3 : Fin 4) = 0 := congrFun ht 3
  refine ⟨t, flush2_4 t, ?_⟩
  rw [joint2_mem_blk]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 32 ≤ (i 1).val ∧ (i 1).val < win2_4.index t (1 : Fin 4) * 32 + 32; omega
  | ⟨2, _⟩ => show win2_4.index t (2 : Fin 4) * 64 ≤ (i 2).val ∧ (i 2).val < win2_4.index t (2 : Fin 4) * 64 + 64; omega
  | ⟨3, _⟩ => show win2_4.index t (3 : Fin 4) * 1024 ≤ (i 3).val ∧ (i 3).val < win2_4.index t (3 : Fin 4) * 1024 + 1024; omega

/-- THE OUTPUT ARRAY after the joint kernel: at (b, τ, u, v) it holds `jointOf` of the four arrays the kernel was entered
    with — every grid point writes back its block of that one function, and the 32 blocks tile the array. -/
theorem final2 (c : Dev nD) :
    (dat2 (F := Ideal) V c).arrAt 4 cfg2.N
      = fun i => Cert.JointSpec.jointOf (V c main_v4) (V c main_v5) (V c main_v6) (V c main_arg7) (i 0) (i 1) (i 2) (i 3) :=
  (dat2 (F := Ideal) V c).arrAt_eq_of_cover 4 _ (fun t _ => joint2_flushed_eq V c t) joint2_cover

end Cert.KernelIdeal.Regions

end
-- ==== Proof.Flatten.lean ====
import proofs.«129957_j33552284516605_1_alg».proof.Proof.Spec
import Idealize.ShloMosaic.Lib.Pipeline.Value
import Idealize.ShloMosaic.Lib.ValueIdx

/-
  The projections computed on ROW-FLATTENED arrays are the specification's projections.

  A dense layer `x · W + bias` acts on the LAST axis of `x` only, so it does not care how the leading axes are
  grouped. The kernel uses this: it reads the encoder [4, 256, 512] as a matrix [1024, 512] whose row `256·b + t` is
  the feature vector enc[b, t, :], applies the layer to the 1024 rows, and reads the [1024, 1024] result back as
  [4, 256, 1024]; likewise the predictor [4, 64, 512] through [256, 512] (row `64·b + u`) and [256, 1024].

  Both reshapes keep every element at its ROW-MAJOR position, and that alone fixes where an element goes:

      position of (b, t, d) in [4, 256, 512]    = (b·256 + t)·512 + d  = position of (256·b + t, d) in [1024, 512],
      position of (b, t, j) in [4, 256, 1024]   = (b·256 + t)·1024 + j = position of (256·b + t, j) in [1024, 1024].

  So entry (b, t, j) of the reshaped result is the layer's output at row `256·b + t`, column j, and that row of the
  flattened input is, entry by entry, enc[b, t, :]: the two sums over d have the same terms. The same two lines with 64
  for 256 serve the predictor. Finally the joint stage `jointOf` applied to the two arrays so obtained is `logits`,
  because these arrays ARE the specification's two projected arrays.
-/

noncomputable section

open Idealize.ShloMosaic

namespace Cert.JointSpec

open Idealize.ShloMosaic.ValueIdx

/-! ## The encoder: [4, 256, ·] ↔ [1024, ·], row 256·b + t -/

/-- Row `256·b + t` of the flattened encoder is enc[b, t, :]: (b, t, d) and (256·b + t, d) have the same row-major
    position (b·256 + t)·512 + d. -/
theorem enc_flat_apply {α : Type} (enc : (⟨3, ![4, 256, 512]⟩ : Shape).Idx → α)
    (hin : (⟨3, ![4, 256, 512]⟩ : Shape).ShapeCasts ⟨2, ![1024, 512]⟩) (b : Fin 4) (t : Fin 256) (d : Fin 512) :
    shapeCast ⟨2, ![1024, 512]⟩ enc hin (ix2 (⟨256 * b.val + t.val, by omega⟩ : Fin 1024) d) = enc (ix3 b t d) := by
  refine shapeCast_apply enc hin _ (ix3 b t d) ?_
  rw [Shape.rowMajor_val_two, Shape.rowMajor_val_three]
  show (b.val * 256 + t.val) * 512 + d.val = (256 * b.val + t.val) * 512 + d.val
  omega

/-- Entry (b, t, j) of a [1024, 1024] array read back as [4, 256, 1024] is its entry (256·b + t, j): both have the
    row-major position (b·256 + t)·1024 + j. -/
theorem enc_unflat_apply {α : Type} (y : (⟨2, ![1024, 1024]⟩ : Shape).Idx → α)
    (hout : (⟨2, ![1024, 1024]⟩ : Shape).ShapeCasts ⟨3, ![4, 256, 1024]⟩) (b : Fin 4) (t : Fin 256) (j : Fin 1024) :
    shapeCast ⟨3, ![4, 256, 1024]⟩ y hout (ix3 b t j) = y (ix2 (⟨256 * b.val + t.val, by omega⟩ : Fin 1024) j) := by
  refine shapeCast_apply y hout _ _ ?_
  rw [Shape.rowMajor_val_two, Shape.rowMajor_val_three]
  show (256 * b.val + t.val) * 1024 + j.val = (b.val * 256 + t.val) * 1024 + j.val
  omega

/-- The dense layer run on the 1024 rows of the flattened encoder, read back as [4, 256, 1024], is the encoder's
    projection: at (b, t, j) it is Σ_d enc[b, t, d] · W[d, j] + bias[j]. -/
theorem encProj_of_rows (enc : (⟨3, ![4, 256, 512]⟩ : Shape).Idx → EReal) (w : (⟨2, ![512, 1024]⟩ : Shape).Idx → EReal)
    (bias : (⟨1, ![1024]⟩ : Shape).Idx → EReal)
    (hin : (⟨3, ![4, 256, 512]⟩ : Shape).ShapeCasts ⟨2, ![1024, 512]⟩)
    (hout : (⟨2, ![1024, 1024]⟩ : Shape).ShapeCasts ⟨3, ![4, 256, 1024]⟩)
    (b : Fin 4) (t : Fin 256) (j : Fin 1024) :
    shapeCast ⟨3, ![4, 256, 1024]⟩
        (fun a : (⟨2, ![1024, 1024]⟩ : Shape).Idx => denseRows (R := 1024) (shapeCast ⟨2, ![1024, 512]⟩ enc hin) w bias (a 0) (a 1))
        hout (ix3 b t j)
      = encProj enc w bias b t j := by
  -- the reshaped result at (b, t, j) is the layer's output at row 256·b + t, column j …
  refine (enc_unflat_apply _ hout b t j).trans ?_
  show denseRows (shapeCast ⟨2, ![1024, 512]⟩ enc hin) w bias (⟨256 * b.val + t.val, by omega⟩ : Fin 1024) j
    = encProj enc w bias b t j
  -- … and the layer's input there, row 256·b + t of the flattened encoder, is enc[b, t, :] entry by entry.
  unfold denseRows encProj
  exact congrArg (fun x => dense x (fun d => w (ix2 d j)) (bias (ix1 j))) (funext fun d => enc_flat_apply enc hin b t d)

/-! ## The predictor: [4, 64, ·] ↔ [256, ·], row 64·b + u -/

/-- Row `64·b + u` of the flattened predictor is pred[b, u, :]: (b, u, d) and (64·b + u, d) have the same row-major
    position (b·64 + u)·512 + d. -/
theorem pred_flat_apply {α : Type} (pred : (⟨3, ![4, 64, 512]⟩ : Shape).Idx → α)
    (hin : (⟨3, ![4, 64, 512]⟩ : Shape).ShapeCasts ⟨2, ![256, 512]⟩) (b : Fin 4) (u : Fin 64) (d : Fin 512) :
    shapeCast ⟨2, ![256, 512]⟩ pred hin (ix2 (⟨64 * b.val + u.val, by omega⟩ : Fin 256) d) = pred (ix3 b u d) := by
  refine shapeCast_apply pred hin _ (ix3 b u d) ?_
  rw [Shape.rowMajor_val_two, Shape.rowMajor_val_three]
  show (b.val * 64 + u.val) * 512 + d.val = (64 * b.val + u.val) * 512 + d.val
  omega

/-- Entry (b, u, j) of a [256, 1024] array read back as [4, 64, 1024] is its entry (64·b + u, j): both have the
    row-major position (b·64 + u)·1024 + j. -/
theorem pred_unflat_apply {α : Type} (y : (⟨2, ![256, 1024]⟩ : Shape).Idx → α)
    (hout : (⟨2, ![256, 1024]⟩ : Shape).ShapeCasts ⟨3, ![4, 64, 1024]⟩) (b : Fin 4) (u : Fin 64) (j : Fin 1024) :
    shapeCast ⟨3, ![4, 64, 1024]⟩ y hout (ix3 b u j) = y (ix2 (⟨64 * b.val + u.val, by omega⟩ : Fin 256) j) := by
  refine shapeCast_apply y hout _ _ ?_
  rw [Shape.rowMajor_val_two, Shape.rowMajor_val_three]
  show (64 * b.val + u.val) * 1024 + j.val = (b.val * 64 + u.val) * 1024 + j.val
  omega

/-- The dense layer run on the 256 rows of the flattened predictor, read back as [4, 64, 1024], is the predictor's
    projection: at (b, u, j) it is Σ_d pred[b, u, d] · W[d, j] + bias[j]. -/
theorem predProj_of_rows (pred : (⟨3, ![4, 64, 512]⟩ : Shape).Idx → EReal) (w : (⟨2, ![512, 1024]⟩ : Shape).Idx → EReal)
    (bias : (⟨1, ![1024]⟩ : Shape).Idx → EReal)
    (hin : (⟨3, ![4, 64, 512]⟩ : Shape).ShapeCasts ⟨2, ![256, 512]⟩)
    (hout : (⟨2, ![256, 1024]⟩ : Shape).ShapeCasts ⟨3, ![4, 64, 1024]⟩)
    (b : Fin 4) (u : Fin 64) (j : Fin 1024) :
    shapeCast ⟨3, ![4, 64, 1024]⟩
        (fun a : (⟨2, ![256, 1024]⟩ : Shape).Idx => denseRows (R := 256) (shapeCast ⟨2, ![256, 512]⟩ pred hin) w bias (a 0) (a 1))
        hout (ix3 b u j)
      = predProj pred w bias b u j := by
  -- the reshaped result at (b, u, j) is the layer's output at row 64·b + u, column j …
  refine (pred_unflat_apply _ hout b u j).trans ?_
  show denseRows (shapeCast ⟨2, ![256, 512]⟩ pred hin) w bias (⟨64 * b.val + u.val, by omega⟩ : Fin 256) j
    = predProj pred w bias b u j
  -- … and the layer's input there, row 64·b + u of the flattened predictor, is pred[b, u, :] entry by entry.
  unfold denseRows predProj
  exact congrArg (fun x => dense x (fun d => w (ix2 d j)) (bias (ix1 j))) (funext fun d => pred_flat_apply pred hin b u d)

/-! ## The logits from the row-flattened projections -/

/-- The joint stage applied to the two projections computed on row-flattened arrays is the specification's `logits`. -/
theorem logits_of_rows (enc : (⟨3, ![4, 256, 512]⟩ : Shape).Idx → EReal) (pred : (⟨3, ![4, 64, 512]⟩ : Shape).Idx → EReal)
    (wEnc : (⟨2, ![512, 1024]⟩ : Shape).Idx → EReal) (bEnc : (⟨1, ![1024]⟩ : Shape).Idx → EReal)
    (wPred : (⟨2, ![512, 1024]⟩ : Shape).Idx → EReal) (bPred : (⟨1, ![1024]⟩ : Shape).Idx → EReal)
    (wOut : (⟨2, ![1024, 1024]⟩ : Shape).Idx → EReal) (bOut : (⟨1, ![1024]⟩ : Shape).Idx → EReal)
    (h1 : (⟨3, ![4, 256, 512]⟩ : Shape).ShapeCasts ⟨2, ![1024, 512]⟩)
    (h2 : (⟨2, ![1024, 1024]⟩ : Shape).ShapeCasts ⟨3, ![4, 256, 1024]⟩)
    (h3 : (⟨3, ![4, 64, 512]⟩ : Shape).ShapeCasts ⟨2, ![256, 512]⟩)
    (h4 : (⟨2, ![256, 1024]⟩ : Shape).ShapeCasts ⟨3, ![4, 64, 1024]⟩) :
    (fun i : (⟨4, ![4, 256, 64, 1024]⟩ : Shape).Idx =>
      jointOf
        (shapeCast ⟨3, ![4, 256, 1024]⟩
          (fun a : (⟨2, ![1024, 1024]⟩ : Shape).Idx => denseRows (R := 1024) (shapeCast ⟨2, ![1024, 512]⟩ enc h1) wEnc bEnc (a 0) (a 1)) h2)
        (shapeCast ⟨3, ![4, 64, 1024]⟩
          (fun a : (⟨2, ![256, 1024]⟩ : Shape).Idx => denseRows (R := 256) (shapeCast ⟨2, ![256, 512]⟩ pred h3) wPred bPred (a 0) (a 1)) h4)
        wOut bOut (i 0) (i 1) (i 2) (i 3))
      = logits enc pred wEnc bEnc wPred bPred wOut bOut := by
  -- As whole arrays, the two reshaped results are the specification's two projected arrays: split an index of each
  -- into its coordinates and read it with the lemmas above.
  have hE : shapeCast ⟨3, ![4, 256, 1024]⟩
        (fun a : (⟨2, ![1024, 1024]⟩ : Shape).Idx => denseRows (R := 1024) (shapeCast ⟨2, ![1024, 512]⟩ enc h1) wEnc bEnc (a 0) (a 1)) h2
      = fun a => encProj enc wEnc bEnc (a 0) (a 1) (a 2) := funext fun a => by
    obtain ⟨b, t, j, rfl⟩ : ∃ (b : Fin 4) (t : Fin 256) (j : Fin 1024), a = ix3 b t j := ⟨a 0, a 1, a 2, eq_ix3 a⟩
    exact encProj_of_rows enc wEnc bEnc h1 h2 b t j
  have hP : shapeCast ⟨3, ![4, 64, 1024]⟩
        (fun a : (⟨2, ![256, 1024]⟩ : Shape).Idx => denseRows (R := 256) (shapeCast ⟨2, ![256, 512]⟩ pred h3) wPred bPred (a 0) (a 1)) h4
      = fun a => predProj pred wPred bPred (a 0) (a 1) (a 2) := funext fun a => by
    obtain ⟨b, u, j, rfl⟩ : ∃ (b : Fin 4) (u : Fin 64) (j : Fin 1024), a = ix3 b u j := ⟨a 0, a 1, a 2, eq_ix3 a⟩
    exact predProj_of_rows pred wPred bPred h3 h4 b u j
  -- `logits` is, by definition, `jointOf` of those two arrays at the index's coordinates.
  exact congrArg₂ (fun e p => fun i : (⟨4, ![4, 256, 64, 1024]⟩ : Shape).Idx => jointOf e p wOut bOut (i 0) (i 1) (i 2) (i 3)) hE hP

end Cert.JointSpec

end
-- ==== Proof.KernelValue.lean ====
/-
  The idealized kernel's result is the specification's logits of the arguments.

  The last boundary's contents at the result buffer are what the joint kernel's write-backs leave in its output array
  (`Gen.W5_arr`): `JointSpec.jointOf` of the four arrays the joint kernel is entered with (`Regions.final2`). Those four
  are the reshaped dense layers of the reshaped `enc` and `pred`, `W_out` and `b_out` (`Boundaries`), and the dense layer
  on row-flattened arrays, reshaped back, is the specification's projection (`JointSpec.logits_of_rows`: both reshapes
  keep the row-major position, so row `256·b + t` is entry (b, t) and row `64·b + u` is entry (b, u)).
-/
import proofs.«129957_j33552284516605_1_alg».proof.Proof.Boundaries
import proofs.«129957_j33552284516605_1_alg».proof.Proof.JointRegion
import proofs.«129957_j33552284516605_1_alg».proof.Proof.Flatten

noncomputable section

open Idealize.ShloMosaic Idealize.ShloMosaic.TcCoe Idealize.SL.Sem

namespace Cert.KernelIdeal.KernelValue

open Cert.KernelIdeal Cert.KernelIdeal.Gen

variable (m : (ℓ : Loc nD τ sig) → Buf (Elt Ideal) ℓ) (ρ : Dev nD → PrngReg)

/-- The result buffer after the run: the logits of the eight argument arrays as launched. -/
theorem result (c : Dev nD) :
    W5 m ρ c (Proc.devRef .tc main_v7)
      = Cert.JointSpec.logits (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W5_arr m ρ c 4).trans ?_
  rw [Regions.final2 (V4 m ρ) c, Boundaries.joint_enc m ρ c, Boundaries.joint_pred m ρ c,
    Boundaries.joint_weights m ρ c, Boundaries.joint_bias m ρ c]
  exact Cert.JointSpec.logits_of_rows _ _ _ _ _ _ _ _ _ _ _ _

end Cert.KernelIdeal.KernelValue

end
-- ==== Proof.RefValue.lean ====
import proofs.«129957_j33552284516605_1_alg».proof.Defs
import proofs.«129957_j33552284516605_1_alg».proof.Proof.Gen.ReferenceIdeal.Run
import proofs.«129957_j33552284516605_1_alg».proof.Proof.Gen.ReferenceIdeal.Read
import proofs.«129957_j33552284516605_1_alg».proof.Proof.Spec
import Idealize.ShloMosaic.Lib.ValueIdx
import Idealize.ShloMosaic.PureOps.Ideal.Laws

/-
  The reference program's last stage IS the specification.

  The reference computes the logits in eighteen whole-array stages. Read at one index (b, t, u, v) they are

      stages 0–3    E[b, t, j]  = (Σ_d enc[b, t, d]  · W_enc[d, j])  + b_enc[j]      a contraction, a broadcast bias, a sum
      stages 4–7    P[b, u, j]  = (Σ_d pred[b, u, d] · W_pred[d, j]) + b_pred[j]     the same for the predictor
      stages 8–13   A[b, t, u, j] = tanh (E[b, t, j] + P[b, u, j])                   two broadcasts each, a sum, a tanh
      stages 14–17  L[b, t, u, v] = (Σ_j A[b, t, u, j] · W_out[j, v]) + b_out[v]     a contraction, a broadcast bias, a sum

  A broadcast only re-reads its operand at an index that forgets (or pins to 0) some coordinates, and a contraction
  over one axis reads its left operand along the contracted axis and its right operand down a column. So every stage,
  read at an index, is an expression in the operands at indices that are FUNCTIONS of (b, t, u, v) and of the
  summation variable; once each of those composed index functions is identified with the plain coordinate tuple it
  denotes, the stages spell, sum for sum and term for term, the three formulas of `Cert.JointSpec`. No arithmetic law
  is used: the two sides are the same expression.
-/

noncomputable section

open Idealize.ShloMosaic Idealize.ShloMosaic.TcCoe Idealize.SL.Sem

namespace Cert.ReferenceIdeal.RefValue

open Cert.ReferenceIdeal Cert.ReferenceIdeal.Gen Idealize.ShloMosaic.ValueIdx

/-! ## The encoder's projection: stages 0–3 -/

/-- The contraction of stage 0 at (b, t, j) reads the encoder along its feature axis: at (b, t, d). -/
theorem enc_lhs_index (b : Fin 4) (t : Fin 256) (j : Fin 1024) (d : Fin 512) :
    Read.lidx_main_v0 (ix3 b t j) d = ix3 b t d :=
  funext fun a => match a with | ⟨0, _⟩ => rfl | ⟨1, _⟩ => rfl | ⟨2, _⟩ => rfl

/-- … and the weight down column j: at (d, j). -/
theorem enc_rhs_index (b : Fin 4) (t : Fin 256) (j : Fin 1024) (d : Fin 512) :
    Read.ridx_main_v0 (ix3 b t j) d = ix2 d j :=
  funext fun a => match a with | ⟨0, _⟩ => rfl | ⟨1, _⟩ => rfl

/-- The bias, broadcast [1024] → [1, 1, 1024] → [4, 256, 1024], is read at (b, t, j) where it was given: at j. -/
theorem enc_bias_index (b : Fin 4) (t : Fin 256) (j : Fin 1024) :
    Read.idx_main_v1 (Read.idx_main_v2 (ix3 b t j)) = ix1 j :=
  funext fun a => match a with | ⟨0, _⟩ => rfl

/-- Stage 3 at (b, t, j) is the encoder's projection: Σ_d enc[b, t, d] · W_enc[d, j] + b_enc[j]. -/
theorem encStage (x0 : FVec Ideal S4x256x512 .f32) (x2 : FVec Ideal S512x1024 .f32) (x3 : FVec Ideal S1024 .f32)
    (b : Fin 4) (t : Fin 256) (j : Fin 1024) :
    Read.val_main_v3 (F := Ideal) x0 x2 x3 (ix3 b t j) = Cert.JointSpec.encProj x0 x2 x3 b t j := by
  rw [Read.val_main_v3_apply, Read.val_main_v0_apply, Read.val_main_v2_apply, Read.val_main_v1_apply, Ideal.addf_def,
    enc_bias_index]
  unfold Cert.JointSpec.encProj Cert.JointSpec.dense
  refine congrArg (· + x3 (ix1 j)) (Finset.sum_congr rfl fun d _ => ?_)
  rw [enc_lhs_index, enc_rhs_index]

/-! ## The predictor's projection: stages 4–7 -/

/-- The contraction of stage 4 at (b, u, j) reads the predictor along its feature axis: at (b, u, d). -/
theorem pred_lhs_index (b : Fin 4) (u : Fin 64) (j : Fin 1024) (d : Fin 512) :
    Read.lidx_main_v4 (ix3 b u j) d = ix3 b u d :=
  funext fun a => match a with | ⟨0, _⟩ => rfl | ⟨1, _⟩ => rfl | ⟨2, _⟩ => rfl

/-- … and the weight down column j: at (d, j). -/
theorem pred_rhs_index (b : Fin 4) (u : Fin 64) (j : Fin 1024) (d : Fin 512) :
    Read.ridx_main_v4 (ix3 b u j) d = ix2 d j :=
  funext fun a => match a with | ⟨0, _⟩ => rfl | ⟨1, _⟩ => rfl

/-- The bias, broadcast [1024] → [1, 1, 1024] → [4, 64, 1024], is read at (b, u, j) where it was given: at j. -/
theorem pred_bias_index (b : Fin 4) (u : Fin 64) (j : Fin 1024) :
    Read.idx_main_v5 (Read.idx_main_v6 (ix3 b u j)) = ix1 j :=
  funext fun a => match a with | ⟨0, _⟩ => rfl

/-- Stage 7 at (b, u, j) is the predictor's projection: Σ_d pred[b, u, d] · W_pred[d, j] + b_pred[j]. -/
theorem predStage (x1 : FVec Ideal S4x64x512 .f32) (x4 : FVec Ideal S512x1024 .f32) (x5 : FVec Ideal S1024 .f32)
    (b : Fin 4) (u : Fin 64) (j : Fin 1024) :
    Read.val_main_v7 (F := Ideal) x1 x4 x5 (ix3 b u j) = Cert.JointSpec.predProj x1 x4 x5 b u j := by
  rw [Read.val_main_v7_apply, Read.val_main_v4_apply, Read.val_main_v6_apply, Read.val_main_v5_apply, Ideal.addf_def,
    pred_bias_index]
  unfold Cert.JointSpec.predProj Cert.JointSpec.dense
  refine congrArg (· + x5 (ix1 j)) (Finset.sum_congr rfl fun d _ => ?_)
  rw [pred_lhs_index, pred_rhs_index]

/-! ## The joint activation: stages 8–13 -/

/-- The encoder's projection reaches the joint array by [4, 256, 1024] → [4, 256, 1, 1024] → [4, 256, 64, 1024]: the
    new axis u is forgotten, so the entry (b, t, u, j) is the projection's entry (b, t, j). -/
theorem joint_enc_index (b : Fin 4) (t : Fin 256) (u : Fin 64) (j : Fin 1024) :
    Read.idx_main_v8 (Read.idx_main_v10 (ix4 b t u j)) = ix3 b t j :=
  funext fun a => match a with | ⟨0, _⟩ => rfl | ⟨1, _⟩ => rfl | ⟨2, _⟩ => rfl

/-- The predictor's projection reaches it by [4, 64, 1024] → [4, 1, 64, 1024] → [4, 256, 64, 1024]: the new axis t is
    forgotten, so the entry (b, t, u, j) is the projection's entry (b, u, j). -/
theorem joint_pred_index (b : Fin 4) (t : Fin 256) (u : Fin 64) (j : Fin 1024) :
    Read.idx_main_v9 (Read.idx_main_v11 (ix4 b t u j)) = ix3 b u j :=
  funext fun a => match a with | ⟨0, _⟩ => rfl | ⟨1, _⟩ => rfl | ⟨2, _⟩ => rfl

/-- Stage 13 at (b, t, u, j) is the joint activation tanh (E[b, t, j] + P[b, u, j]) of the two projections. -/
theorem activationStage (x0 : FVec Ideal S4x256x512 .f32) (x1 : FVec Ideal S4x64x512 .f32) (x2 : FVec Ideal S512x1024 .f32)
    (x3 : FVec Ideal S1024 .f32) (x4 : FVec Ideal S512x1024 .f32) (x5 : FVec Ideal S1024 .f32)
    (b : Fin 4) (t : Fin 256) (u : Fin 64) (j : Fin 1024) :
    Read.val_main_v13 (F := Ideal) x0 x1 x2 x3 x4 x5 (ix4 b t u j)
      = Ideal.tanh (Cert.JointSpec.encProj x0 x2 x3 b t j + Cert.JointSpec.predProj x1 x4 x5 b u j) := by
  rw [Read.val_main_v13_apply, Read.val_main_v12_apply, Read.val_main_v10_apply, Read.val_main_v8_apply,
    Read.val_main_v11_apply, Read.val_main_v9_apply, Ideal.hostUnary_tanh_def, Ideal.addf_def,
    joint_enc_index, joint_pred_index, encStage, predStage]

/-! ## The vocabulary projection: stages 14–17 -/

/-- The contraction of stage 14 at (b, t, u, v) reads the activation along the joint axis: at (b, t, u, j). -/
theorem out_lhs_index (b : Fin 4) (t : Fin 256) (u : Fin 64) (v j : Fin 1024) :
    Read.lidx_main_v14 (ix4 b t u v) j = ix4 b t u j :=
  funext fun a => match a with | ⟨0, _⟩ => rfl | ⟨1, _⟩ => rfl | ⟨2, _⟩ => rfl | ⟨3, _⟩ => rfl

/-- … and the output weight down column v: at (j, v). -/
theorem out_rhs_index (b : Fin 4) (t : Fin 256) (u : Fin 64) (v j : Fin 1024) :
    Read.ridx_main_v14 (ix4 b t u v) j = ix2 j v :=
  funext fun a => match a with | ⟨0, _⟩ => rfl | ⟨1, _⟩ => rfl

/-- The output bias, broadcast [1024] → [1, 1, 1, 1024] → [4, 256, 64, 1024], is read at (b, t, u, v) at v. -/
theorem out_bias_index (b : Fin 4) (t : Fin 256) (u : Fin 64) (v : Fin 1024) :
    Read.idx_main_v15 (Read.idx_main_v16 (ix4 b t u v)) = ix1 v :=
  funext fun a => match a with | ⟨0, _⟩ => rfl

/-- Stage 17 at (b, t, u, v): Σ_j tanh (E[b, t, j] + P[b, u, j]) · W_out[j, v] + b_out[v], the specification's
    `jointOf` applied to the two projections. -/
theorem logitStage (x0 : FVec Ideal S4x256x512 .f32) (x1 : FVec Ideal S4x64x512 .f32) (x2 : FVec Ideal S512x1024 .f32)
    (x3 : FVec Ideal S1024 .f32) (x4 : FVec Ideal S512x1024 .f32) (x5 : FVec Ideal S1024 .f32)
    (x6 : FVec Ideal S1024x1024 .f32) (x7 : FVec Ideal S1024 .f32)
    (b : Fin 4) (t : Fin 256) (u : Fin 64) (v : Fin 1024) :
    Read.val_main_v17 (F := Ideal) x0 x1 x2 x3 x4 x5 x6 x7 (ix4 b t u v)
      = (∑ j : Fin 1024, Ideal.tanh (Cert.JointSpec.encProj x0 x2 x3 b t j + Cert.JointSpec.predProj x1 x4 x5 b u j)
            * x6 (ix2 j v)) + x7 (ix1 v) := by
  rw [Read.val_main_v17_apply, Read.val_main_v14_apply, Read.val_main_v16_apply, Read.val_main_v15_apply,
    Ideal.addf_def, out_bias_index]
  refine congrArg (· + x7 (ix1 v)) (Finset.sum_congr rfl fun j _ => ?_)
  rw [out_lhs_index, out_rhs_index, activationStage]

/-! ## The reference's value is the specification -/

/-- The reference's last stage, as a function of the eight argument arrays, is `Cert.JointSpec.logits`: split the
    index into its coordinates (b, t, u, v); there the stage is the sum above, which is `jointOf` of the two projections
    read at those coordinates. -/
theorem val_eq_logits (x0 : FVec Ideal S4x256x512 .f32) (x1 : FVec Ideal S4x64x512 .f32) (x2 : FVec Ideal S512x1024 .f32)
    (x3 : FVec Ideal S1024 .f32) (x4 : FVec Ideal S512x1024 .f32) (x5 : FVec Ideal S1024 .f32)
    (x6 : FVec Ideal S1024x1024 .f32) (x7 : FVec Ideal S1024 .f32) :
    Read.val_main_v17 (F := Ideal) x0 x1 x2 x3 x4 x5 x6 x7 = Cert.JointSpec.logits x0 x1 x2 x3 x4 x5 x6 x7 := by
  funext i
  obtain ⟨b, t, u, v, rfl⟩ : ∃ (b : Fin 4) (t : Fin 256) (u : Fin 64) (v : Fin 1024), i = ix4 b t u v :=
    ⟨i 0, i 1, i 2, i 3, eq_ix4 i⟩
  -- `logits` at (b, t, u, v) is, by definition, `jointOf` of the two projections read at (b, t, j) and (b, u, j):
  show _ = (∑ j : Fin 1024, Ideal.tanh (Cert.JointSpec.encProj x0 x2 x3 b t j + Cert.JointSpec.predProj x1 x4 x5 b u j)
      * x6 (ix2 j v)) + x7 (ix1 v)
  exact logitStage x0 x1 x2 x3 x4 x5 x6 x7 b t u v

end Cert.ReferenceIdeal.RefValue

end
-- ==== Proof.lean ====
/-
  The certificate of the transducer joint network: the Pallas kernel against its jnp reference, on the extended reals.

  Both programs compute, for a batch entry `b`, an encoder frame `t`, a predictor step `u` and a vocabulary entry `v`,

      (Σ_j tanh ((Σ_d enc[b,t,d]·W_enc[d,j] + b_enc[j]) + (Σ_d pred[b,u,d]·W_pred[d,j] + b_pred[j])) · W_out[j,v]) + b_out[v]

  (`Cert.JointSpec.logits`). The kernel does it in three pipelined kernels among host reshapes — two dense projections on
  row-flattened arrays, then a fused broadcast-add, tanh and vocabulary projection tile by tile —; the reference with three
  contractions and broadcasts. On the extended reals the changes of float format are the identity and a matrix product
  into a zero accumulator is the plain sum, so the two results are the same expression of the arguments; no finiteness
  of the inputs is used.

    * The three frames: the two kernels' are generated; the reference's is its generated run with the result dropped.
    * `preserves`: the ideal pass rewrote nothing, so the conjunct is `True`.
    * `algebraic`: the kernel's run ends with the result at `logits` of the arguments (`ValueRun.run_result`,
      `KernelValue.result`), the reference's at its last stage, which is `logits` of its arguments
      (`RefValue.val_eq_logits`), and the arguments agree.
-/
import proofs.«129957_j33552284516605_1_alg».proof.Defs
import proofs.«129957_j33552284516605_1_alg».proof.Proof.Gen.Kernel
import proofs.«129957_j33552284516605_1_alg».proof.Proof.Gen.Kernel.Frame
import proofs.«129957_j33552284516605_1_alg».proof.Proof.Gen.KernelIdeal
import proofs.«129957_j33552284516605_1_alg».proof.Proof.Gen.KernelIdeal.Frame
import proofs.«129957_j33552284516605_1_alg».proof.Proof.Gen.ReferenceIdeal
import proofs.«129957_j33552284516605_1_alg».proof.Proof.Gen.ReferenceIdeal.Run
import proofs.«129957_j33552284516605_1_alg».proof.Proof.Gen.ReferenceIdeal.Read
import proofs.«129957_j33552284516605_1_alg».proof.Proof.Gen.Pre_finite_inputs
import proofs.«129957_j33552284516605_1_alg».proof.Proof.KernelRun
import proofs.«129957_j33552284516605_1_alg».proof.Proof.KernelValue
import proofs.«129957_j33552284516605_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame of its three regions. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference is a straight line of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel: there is nothing to restate. -/
theorem preserves : Cert.preserves_Kernel_KernelIdeal := trivial

/-- From memories that agree on the eight arguments, the idealized kernel and the idealized reference both run, and both
    end with the result at `JointSpec.logits` of the arguments: the kernel by its run read at the result buffer and the
    fold through its segments, the reference by its run and its last stage read index by index. -/
theorem algebraic : Cert.algebraic_KernelIdeal_ReferenceIdeal := by
  intro m ρ m' ρ' _ hagree
  refine ⟨fun c => Cert.JointSpec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.ValueRun.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7⟩ := hagree c
    rw [(h c).1, Cert.ReferenceIdeal.Read.val_main_v17_eq, Cert.ReferenceIdeal.RefValue.val_eq_logits,
      a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
